-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x512 : Shape := ⟨2, ![4000, 512]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x64, .bf16⟩
  | .hbm, ⟨38, _⟩ => ⟨S3300000x64, .f32⟩
  | .hbm, ⟨39, _⟩ => ⟨S_, .f32⟩
  | .hbm, ⟨40, _⟩ => ⟨S100000x64, .f32⟩
  | .hbm, ⟨41, _⟩ => ⟨S3300000x1, .i32⟩
  | .hbm, ⟨42, _⟩ => ⟨S100000x64, .f32⟩
  | .hbm, ⟨43, _⟩ => ⟨S1x64, .f32⟩
  | .hbm, ⟨44, _⟩ => ⟨S100000x16, .bf16⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .bf16⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x16, .f32⟩
  | .local _ .vmem, ⟨13, _⟩ => ⟨S5000x16, .bf16⟩
  | .local _ .vmem, ⟨14, _⟩ => ⟨S5000x16, .bf16⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  packedbf16_S5000x16_S5000x16_0_0 : (Rect.unit (s := S5000x16) ![0, 0] S5000x16.size inb_S5000x16_S5000x16_0_0).PackedRows (EltTy.packing .bf16)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  scatter_S100000_S3300000x1_S3300000_n_0_0_1_wf : ScatterDims.WF S100000 S3300000x1 S3300000 [] [0] [0] 1
  dot_S4000x512_S512x64_S4000x64_1_0_0_1_n_n_wf : DotDims.WF S4000x512 S512x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x16_S5000x16_1_0_0_1_n_n_wf : DotDims.WF S5000x64 S64x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .bf16 = 32 ∨ (Rect.block (s := S100000x16) S5000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S3300000x1, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x16, .f32⟩
  | .hbm, ⟨99, _⟩ => ⟨S3300000x16, .f32⟩
  | .hbm, ⟨100, _⟩ => ⟨S3300000x16, .f32⟩
  | .hbm, ⟨101, _⟩ => ⟨S_, .f32⟩
  | .hbm, ⟨102, _⟩ => ⟨S100000x16, .f32⟩
  | .hbm, ⟨103, _⟩ => ⟨S3300000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x16, .f32⟩
  | .hbm, ⟨115, _⟩ => ⟨S100000x16, .f32⟩
  | .hbm, ⟨116, _⟩ => ⟨S100000x16, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x16, .f32⟩
  | .hbm, ⟨122, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  dot_S100000x512_S512x64_S100000x64_1_0_0_1_n_n_wf : DotDims.WF S100000x512 S512x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel program's run with its result: every weakly fair execution ends, nothing faulting, with the
  result array at the contents the last region leaves (the last boundary of the fold through the program's segments)
  and the six argument arrays as launched.  The launch is the frame's own, over the same segments; what is added is
  one more buffer read off the final state.
-/
import proofs.«134963_j35364760715853_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.LibRowScatterGather.lean ====
/-
  Row scatters and row gathers read by coordinates.

  `x.at[rows].add(u)` on a vector `x : [N]` and on a matrix `x : [N, C]` (jax's segment sum), with the row numbers
  given as a column `[E, 1]` of signed words: update `e` (or its entry `(e, f)`) lands on row `i` (entry `(i, f')`)
  exactly when the word of row `e` reads, signed, as `i` (and `f = f'`); no clamping, an update outside is dropped.
  `x[rows]` on a matrix `[N, C]`, and the cell gather `x[rows, 0]` on a column `[N, 1]`: the row read is the word of
  row `e`, signed and clamped into `[0, N - 1]`.
-/
import Idealize.ShloMosaic.PureOps.Ideal.Laws
import Idealize.ShloMosaic.Lib.ValueIdx

namespace Idealize.ShloMosaic.ValueIdx

open Idealize.ShloMosaic

variable {N E C w : ℕ}

/-! ## The scatter of a vector's rows -/

/-- The dimension numbers of `x.at[rows].add(u)` for `x : [N]`, `rows : [E, 1]`, `u : [E]`. -/
abbrev addRows1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem addRows1_start (wf : ScatterDims.WF ⟨1, ![N]⟩ ⟨2, ![E, 1]⟩ ⟨1, ![E]⟩ [] [0] [0] 1)
    (idx : IVec ⟨2, ![E, 1]⟩ w) (e : Fin E) :
    (addRows1 N E wf).start (ix1 e) idx 0 = (idx (ix2 e 0)).toInt := by
  unfold ScatterDims.start
  rw [dif_pos (show (0 : Fin 1) ∈ (addRows1 N E wf).scatterDimsToOperandDims from List.mem_singleton.mpr rfl)]
  have hsi : (addRows1 N E wf).siIdx (ix1 e) ⟨List.idxOf (0 : Fin 1) (addRows1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows1_window (wf : ScatterDims.WF ⟨1, ![N]⟩ ⟨2, ![E, 1]⟩ ⟨1, ![E]⟩ [] [0] [0] 1) (e : Fin E) :
    (addRows1 N E wf).window (ix1 e) 0 = 0 := by
  unfold ScatterDims.window
  rw [dif_neg (by simp [Shape.kept])]

/-- Update `e` of a vector's row scatter lands on `i` exactly when row `e`'s word reads, signed, as `i`. -/
theorem addRows1_lands (wf : ScatterDims.WF ⟨1, ![N]⟩ ⟨2, ![E, 1]⟩ ⟨1, ![E]⟩ [] [0] [0] 1)
    (idx : IVec ⟨2, ![E, 1]⟩ w) (e : Fin E) (i : Fin N) :
    (addRows1 N E wf).resultIdx? (ix1 e) idx = some (ix1 i) ↔ (idx (ix2 e 0)).toInt = (i.val : ℤ) := by
  unfold ScatterDims.resultIdx?
  split
  · rename_i h
    rw [Option.some.injEq]
    constructor
    · intro heq
      have h1 : ((addRows1 N E wf).start (ix1 e) idx 0 + ((addRows1 N E wf).window (ix1 e) 0 : ℕ)).toNat = i.val :=
        congrArg Fin.val (congrFun heq 0)
      have h0 := (h 0).1
      rw [addRows1_start, addRows1_window] at h1 h0
      omega
    · intro hval
      funext a
      obtain rfl : a = 0 := Subsingleton.elim _ _
      apply Fin.ext
      show ((addRows1 N E wf).start (ix1 e) idx 0 + ((addRows1 N E wf).window (ix1 e) 0 : ℕ)).toNat = i.val
      rw [addRows1_start, addRows1_window, hval]
      omega
  · rename_i h
    constructor
    · intro h'; exact absurd h' (by simp)
    · intro hval
      exfalso; apply h
      intro a
      obtain rfl : a = 0 := Subsingleton.elim _ _
      rw [addRows1_start, addRows1_window, hval]
      have := i.isLt
      show 0 ≤ (i.val : ℤ) + ((0 : ℕ) : ℤ) ∧ (i.val : ℤ) + ((0 : ℕ) : ℤ) < ((N : ℕ) : ℤ)
      omega

/-! ## The scatter of a matrix's rows -/

/-- The dimension numbers of `x.at[rows].add(u)` for `x : [N, C]`, `rows : [E, 1]`, `u : [E, C]`. -/
abbrev addRows2 (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem addRows2_start0 (wf : ScatterDims.WF ⟨2, ![N, C]⟩ ⟨2, ![E, 1]⟩ ⟨2, ![E, C]⟩ [1] [0] [0] 1)
    (idx : IVec ⟨2, ![E, 1]⟩ w) (e : Fin E) (f : Fin C) :
    (addRows2 N C E wf).start (ix2 e f) idx 0 = (idx (ix2 e 0)).toInt := by
  unfold ScatterDims.start
  rw [dif_pos (show (0 : Fin 2) ∈ (addRows2 N C E wf).scatterDimsToOperandDims from List.mem_singleton.mpr rfl)]
  have hsi : (addRows2 N C E wf).siIdx (ix2 e f) ⟨List.idxOf (0 : Fin 2) (addRows2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows2_start1 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRows2 N C E wf).start j idx 1 = 0 := by
  unfold ScatterDims.start
  rw [dif_neg (by simp)]

theorem addRows2_window0 (wf : ScatterDims.WF ⟨2, ![N, C]⟩ ⟨2, ![E, 1]⟩ ⟨2, ![E, C]⟩ [1] [0] [0] 1)
    (j : (⟨2, ![E, C]⟩ : Shape).Idx) : (addRows2 N C E wf).window j 0 = 0 := by
  unfold ScatterDims.window
  rw [dif_neg (by simp [Shape.kept])]

theorem addRows2_window1 (wf : ScatterDims.WF ⟨2, ![N, C]⟩ ⟨2, ![E, 1]⟩ ⟨2, ![E, C]⟩ [1] [0] [0] 1)
    (e : Fin E) (f : Fin C) : (addRows2 N C E wf).window (ix2 e f) 1 = f.val := by
  unfold ScatterDims.window
  rw [dif_pos (by simp [Shape.kept])]
  rfl

/-- Entry `(e, f)` of a matrix's row scatter lands on `(i, f')` exactly when row `e`'s word reads, signed, as `i`, and
    `f = f'`. -/
theorem addRows2_lands (wf : ScatterDims.WF ⟨2, ![N, C]⟩ ⟨2, ![E, 1]⟩ ⟨2, ![E, C]⟩ [1] [0] [0] 1)
    (idx : IVec ⟨2, ![E, 1]⟩ w) (e : Fin E) (f : Fin C) (i : Fin N) (f' : Fin C) :
    (addRows2 N C E wf).resultIdx? (ix2 e f) idx = some (ix2 i f') ↔ (idx (ix2 e 0)).toInt = (i.val : ℤ) ∧ f = f' := by
  unfold ScatterDims.resultIdx?
  split
  · rename_i h
    rw [Option.some.injEq]
    constructor
    · intro heq
      have h1 : ((addRows2 N C E wf).start (ix2 e f) idx 0 + ((addRows2 N C E wf).window (ix2 e f) 0 : ℕ)).toNat = i.val :=
        congrArg Fin.val (congrFun heq 0)
      have h2 : ((addRows2 N C E wf).start (ix2 e f) idx 1 + ((addRows2 N C E wf).window (ix2 e f) 1 : ℕ)).toNat = f'.val :=
        congrArg Fin.val (congrFun heq 1)
      have h0 := (h 0).1
      rw [addRows2_start0, addRows2_window0] at h1 h0
      rw [addRows2_start1, addRows2_window1] at h2
      exact ⟨by omega, Fin.ext (by omega)⟩
    · rintro ⟨hval, rfl⟩
      funext a
      apply Fin.ext
      match a with
      | ⟨0, _⟩ =>
        show ((addRows2 N C E wf).start (ix2 e f) idx 0 + ((addRows2 N C E wf).window (ix2 e f) 0 : ℕ)).toNat = i.val
        rw [addRows2_start0, addRows2_window0, hval]; omega
      | ⟨1, _⟩ =>
        show ((addRows2 N C E wf).start (ix2 e f) idx 1 + ((addRows2 N C E wf).window (ix2 e f) 1 : ℕ)).toNat = f.val
        rw [addRows2_start1, addRows2_window1]; omega
  · rename_i h
    constructor
    · intro h'; exact absurd h' (by simp)
    · rintro ⟨hval, rfl⟩
      exfalso; apply h
      intro a
      match a with
      | ⟨0, _⟩ =>
        have := i.isLt
        show 0 ≤ (addRows2 N C E wf).start (ix2 e f) idx 0 + ((addRows2 N C E wf).window (ix2 e f) 0 : ℕ)
          ∧ (addRows2 N C E wf).start (ix2 e f) idx 0 + ((addRows2 N C E wf).window (ix2 e f) 0 : ℕ) < ((N : ℕ) : ℤ)
        rw [addRows2_start0, addRows2_window0, hval]; omega
      | ⟨1, _⟩ =>
        have := f.isLt
        show 0 ≤ (addRows2 N C E wf).start (ix2 e f) idx 1 + ((addRows2 N C E wf).window (ix2 e f) 1 : ℕ)
          ∧ (addRows2 N C E wf).start (ix2 e f) idx 1 + ((addRows2 N C E wf).window (ix2 e f) 1 : ℕ) < ((C : ℕ) : ℤ)
        rw [addRows2_start1, addRows2_window1]; omega

/-! ## The two scatter-adds at an index, as sums over the updates' rows -/

/-- A rank-1 index set is its one coordinate's range, so a sum over it is the sum over the coordinate. -/
theorem sum_idx1 {M : Type*} [AddCommMonoid M] {n : Nat} (g : (⟨1, ![n]⟩ : Shape).Idx → M) :
    ∑ i, g i = ∑ a : Fin n, g (ix1 a) :=
  (Equiv.sum_comp (⟨fun a => ix1 a, fun i => i 0, fun _ => rfl, fun i => (eq_ix1 i).symm⟩ : Fin n ≃ (⟨1, ![n]⟩ : Shape).Idx) g).symm

/-- `x.at[rows].add(u)` on a vector, at `i`: `x i` plus the updates whose row word reads as `i`. -/
theorem scatterRows1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (addRows1 N E wf) x idx upd (ix1 i)
      = x (ix1 i) + ∑ e ∈ Finset.univ.filter (fun e : Fin E => (idx (ix2 e 0)).toInt = (i.val : ℤ)), upd (ix1 e) := by
  unfold Ideal.hostScatterAdd
  refine congrArg (x (ix1 i) + ·) ?_
  rw [Finset.sum_filter, Finset.sum_filter, sum_idx1]
  refine Finset.sum_congr rfl fun e _ => ?_
  by_cases hL : (idx (ix2 e 0)).toInt = (i.val : ℤ)
  · rw [if_pos hL, if_pos ((addRows1_lands wf idx e i).mpr hL)]
  · rw [if_neg hL, if_neg (fun h => hL ((addRows1_lands wf idx e i).mp h))]

/-- `x.at[rows].add(u)` on a matrix, at `(i, f)`: `x (i, f)` plus column `f` of the updates whose row word reads as `i`. -/
theorem scatterRows2_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (addRows2 N C E wf) x idx upd (ix2 i f)
      = x (ix2 i f) + ∑ e ∈ Finset.univ.filter (fun e : Fin E => (idx (ix2 e 0)).toInt = (i.val : ℤ)), upd (ix2 e f) := by
  unfold Ideal.hostScatterAdd
  refine congrArg (x (ix2 i f) + ·) ?_
  rw [Finset.sum_filter, Finset.sum_filter, sum_idx2]
  refine Finset.sum_congr rfl fun e _ => ?_
  by_cases hL : (idx (ix2 e 0)).toInt = (i.val : ℤ)
  · rw [if_pos hL, Finset.sum_eq_single f]
    · rw [if_pos ((addRows2_lands wf idx e f i f).mpr ⟨hL, rfl⟩)]
    · intro f' _ hne
      rw [if_neg (fun h => hne ((addRows2_lands wf idx e f' i f).mp h).2)]
    · intro h; exact absurd (Finset.mem_univ f) h
  · rw [if_neg hL]
    refine Finset.sum_eq_zero fun f' _ => ?_
    rw [if_neg (fun h => hL ((addRows2_lands wf idx e f' i f).mp h).1)]

/-- The same for the host's scatter-add at any dimension record equal to the vector row form. -/
theorem host_scatterRows1_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = addRows1 N E wf)
    (x : (⟨1, ![N]⟩ : Shape).Idx → EReal) (idx : IVec ⟨2, ![E, 1]⟩ w) (upd : (⟨1, ![E]⟩ : Shape).Idx → EReal) (i : Fin N) :
    Host.scatterAdd (F := Ideal) (φ := .f32) d x idx upd (ix1 i)
      = x (ix1 i) + ∑ e ∈ Finset.univ.filter (fun e : Fin E => (idx (ix2 e 0)).toInt = (i.val : ℤ)), upd (ix1 e) := by
  subst hd
  exact scatterRows1_apply wf x idx upd i

/-- The same for the host's scatter-add at any dimension record equal to the matrix row form. -/
theorem host_scatterRows2_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = addRows2 N C E wf)
    (x : (⟨2, ![N, C]⟩ : Shape).Idx → EReal) (idx : IVec ⟨2, ![E, 1]⟩ w) (upd : (⟨2, ![E, C]⟩ : Shape).Idx → EReal)
    (i : Fin N) (f : Fin C) :
    Host.scatterAdd (F := Ideal) (φ := .f32) d x idx upd (ix2 i f)
      = x (ix2 i f) + ∑ e ∈ Finset.univ.filter (fun e : Fin E => (idx (ix2 e 0)).toInt = (i.val : ℤ)), upd (ix2 e f) := by
  subst hd
  exact scatterRows2_apply wf x idx upd i f

/-! ## Gathers of rows -/

/-- A signed word clamped to a row number of an array with `N` rows. -/
def clampRow (N : ℕ) (hN : 0 < N) {w : ℕ} (v : BitVec w) : Fin N := ⟨min v.toInt.toNat (N - 1), by omega⟩

/-- The dimension numbers of `x[rows]` for `x : [N, C]`, `rows : [E, 1]`, result `[E, C]`. -/
abbrev takeRows (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[rows]` at `(e, f)` is `x` at (row `e`'s word clamped, `f`). -/
theorem takeRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRows N C E wf) x idx (ix2 e f) = x (ix2 (clampRow N hN (idx (ix2 e 0))) f) := by
  unfold Host.gather
  congr 1
  funext a
  refine Fin.ext ?_
  match a with
  | ⟨0, _⟩ =>
    show (takeRows N C E wf).start (ix2 e f) idx 0 + (takeRows N C E wf).batchCoord (ix2 e f) 0 + (takeRows N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e f) ⟨List.idxOf (0 : Fin 2) (takeRows N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRows N C E wf).start (ix2 e f) idx 1 + (takeRows N C E wf).batchCoord (ix2 e f) 1 + (takeRows N C E wf).offCoord (ix2 e f) 1 = f.val
    rw [GatherDims.batchCoord_eq_zero _ _ _ List.not_mem_nil]
    have hs : (takeRows N C E wf).start (ix2 e f) idx 1 = 0 := by
      unfold GatherDims.start
      rw [dif_neg (by simp)]
    have ho : (takeRows N C E wf).offCoord (ix2 e f) 1 = f.val := by
      unfold GatherDims.offCoord
      rw [dif_pos (by simp [Shape.kept])]
      rfl
    rw [hs, ho]
    omega

/-- The dimension numbers of the cell gather `x[rows, cols]` for `x : [N, 1]`, the pairs `[E, 2]`, result `[E]`. -/
abbrev takeCells (N E : ℕ) (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A cell gather from a one-column matrix at `e` is the column at pair `e`'s first word clamped, whatever its second
    word: the column axis has one coordinate. -/
theorem takeCells_apply {α : Type} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (takeCells N E wf) x idx (ix1 e) = x (ix2 (clampRow N hN (idx (ix2 e 0))) 0) := by
  unfold Host.gather
  congr 1
  funext a
  refine Fin.ext ?_
  match a with
  | ⟨0, _⟩ =>
    show (takeCells N E wf).start (ix1 e) idx 0 + (takeCells N E wf).batchCoord (ix1 e) 0 + (takeCells N E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (takeCells N E wf).startIndexMap from by simp)]
    have hsi : (takeCells N E wf).siIdx (ix1 e) ⟨List.idxOf (0 : Fin 2) (takeCells N E wf).startIndexMap,
        List.idxOf_lt_length_iff.2 (by simp)⟩ = ix2 e 0 := by
      funext b; refine Fin.ext ?_
      match b with
      | ⟨0, _⟩ => rfl
      | ⟨1, _⟩ => rfl
    rw [hsi]
    rfl
  | ⟨1, _⟩ =>
    have h1 := (takeCells N E wf).lt (ix1 e) idx 1
    show (takeCells N E wf).start (ix1 e) idx 1 + (takeCells N E wf).batchCoord (ix1 e) 1 + (takeCells N E wf).offCoord (ix1 e) 1 = 0
    have : ((⟨2, ![N, 1]⟩ : Shape).size 1) = 1 := rfl
    omega

end Idealize.ShloMosaic.ValueIdx
-- ==== Proof.Spec.lean ====
/-
  The pieces a two-layer graph convolution is made of, as plain functions of arrays of extended reals, index by index.

  A node array has `N` rows; an edge list has `E` entries, each naming a row by a signed 32-bit word held in a column
  `[E, 1]`.  A word names the row it reads as when it is used to ADD INTO an array (an edge whose word is outside
  `[0, N)` is dropped), and the row it is clamped to when it is used to READ FROM an array.
-/
import Idealize.ShloMosaic.PureOps.Ideal
import Idealize.ShloMosaic.Lib.ValueIdx
import proofs.«134963_j35364760715853_2_alg».proof.Proof.LibRowScatterGather

noncomputable section

namespace Cert.Gcn

open Idealize.ShloMosaic Idealize.ShloMosaic.ValueIdx

/-- A matrix of extended reals. -/
abbrev Mat (a b : ℕ) := (⟨2, ![a, b]⟩ : Shape).Idx → EReal
/-- A vector of extended reals. -/
abbrev Vect (a : ℕ) := (⟨1, ![a]⟩ : Shape).Idx → EReal
/-- A column of edge words. -/
abbrev Words (E : ℕ) := (⟨2, ![E, 1]⟩ : Shape).Idx → BitVec 32

variable {N E K C : ℕ}

/-- The row an edge's word is clamped to when it is read from. -/
def rowOf (hN : 0 < N) (w : Words E) (e : Fin E) : Fin N := clampRow N hN (w (ix2 e 0))

/-- The edges whose word reads, signed, as row `n`: the ones a sum into row `n` collects. -/
def lands (w : Words E) (n : Fin N) : Finset (Fin E) :=
  Finset.univ.filter fun e => (w (ix2 e 0)).toInt = (n.val : ℤ)

/-- The matrix product `x · w`. -/
def product (x : Mat N K) (w : Mat K C) : Mat N C :=
  fun i => ∑ k : Fin K, x (ix2 (i 0) k) * w (ix2 k (i 1))

/-- Every row scaled by its entry of a column. -/
def scaleRows (h : Mat N C) (d : Mat N 1) : Mat N C :=
  fun i => h i * d (ix2 (i 0) 0)

/-- Every row scaled by its entry of a column, plus a row vector. -/
def affineRows (a : Mat N C) (d : Mat N 1) (b : Mat 1 C) : Mat N C :=
  fun i => a i * d (ix2 (i 0) 0) + b (ix2 0 (i 1))

/-- The positive part. -/
def relu (a : Mat N C) : Mat N C := fun i => max (a i) 0

/-- Row `n` of the result is zero plus the sum, over the edges landing on `n`, of the row of `p` the edge's source
    word is clamped to. -/
def gatherSum (hN : 0 < N) (src dst : Words E) (p : Mat N C) : Mat N C :=
  fun i => 0 + ∑ e ∈ lands dst (i 0), p (ix2 (rowOf hN src e) (i 1))

/-- One normalised convolution as the reference computes it: each edge's message is the source row of `h` times the
    product of the two endpoint coefficients, the messages are summed into their destination rows from zero, and a
    bias is added.  `dstRead` holds the destination words as they are used for reading the coefficient. -/
def conv (hN : 0 < N) (src dst dstRead : Words E) (D : Vect N) (h : Mat N C) (b : Vect C) : Mat N C :=
  fun i => (0 + ∑ e ∈ lands dst (i 0),
      h (ix2 (rowOf hN src e) (i 1)) * (D (ix1 (rowOf hN src e)) * D (ix1 (rowOf hN dstRead e)))) + b (ix1 (i 1))

/-- Minus infinity as the programs spell it. -/
abbrev negInf : EReal := Ideal.ofBits .f32 0xFF800000#32

/-- The largest entry of row `r`, folded from minus infinity, and once more compared with minus infinity. -/
def rowMax (z : Mat N C) (r : Fin N) : EReal :=
  max negInf ((Finset.univ : Finset (Fin C)).fold max negInf fun k => z (ix2 r k))

/-- The logarithm of the softmax along each row: the shifted entry minus the logarithm of the sum of the exponentials
    of the row's shifted entries. -/
def logSoftmaxRows (z : Mat N C) : Mat N C :=
  fun i => (z i - rowMax z (i 0)) - Ideal.log (0 + ∑ k : Fin C, Ideal.exp (z (ix2 (i 0) k) - rowMax z (i 0)))

end Cert.Gcn

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.HostForms.lean ====
/-
  The host's "gather the rows the source words name, then add them into the rows the destination words name, starting
  from zero" is `gatherSum`: entry (n, f) is zero plus the sum, over the edges whose destination word reads as `n`, of
  entry f of the row the edge's source word is clamped to.  Also two small layout facts in coordinates.
-/
import proofs.«134963_j35364760715853_2_alg».proof.Proof.Spec
import proofs.«134963_j35364760715853_2_alg».proof.Proof.LibRowScatterGather
import proofs.«134963_j35364760715853_2_alg».proof.Proof.LibColumnForms
import Idealize.ShloMosaic.Lib.ValueLayout

noncomputable section

namespace Cert.Gcn

open Idealize.ShloMosaic Idealize.ShloMosaic.ValueIdx

variable {N E C : ℕ}

/-- Rows gathered by clamped source words and summed from zero into the rows the destination words read as. -/
theorem scatter_gather_eq (hN : 0 < N)
    (dS : ScatterDims ⟨2, ![N, C]⟩ ⟨2, ![E, 1]⟩ ⟨2, ![E, C]⟩)
    (wfS : ScatterDims.WF ⟨2, ![N, C]⟩ ⟨2, ![E, 1]⟩ ⟨2, ![E, C]⟩ [1] [0] [0] 1) (hdS : dS = addRows2 N C E wfS)
    (dG : GatherDims ⟨2, ![N, C]⟩ ⟨2, ![E, 1]⟩ ⟨2, ![E, C]⟩)
    (wfG : GatherDims.WF ⟨2, ![N, C]⟩ ⟨2, ![E, 1]⟩ ⟨2, ![E, C]⟩ [1] [0] [] [0] [] 1 ![1, C]) (hdG : dG = takeRows N C E wfG)
    (zero : Mat N C) (hz : ∀ i, zero i = 0) (src dst : Words E) (p : Mat N C) :
    Host.scatterAdd (F := Ideal) (φ := .f32) dS zero dst (Host.gather dG p src) = gatherSum hN src dst p := by
  funext i
  obtain ⟨n, f, rfl⟩ : ∃ (n : Fin N) (f : Fin C), i = ix2 n f := ⟨i 0, i 1, eq_ix2 i⟩
  rw [host_scatterRows2_apply dS wfS hdS, hz]
  show 0 + _ = 0 + ∑ e ∈ lands dst n, p (ix2 (rowOf hN src e) f)
  refine congrArg (0 + ·) (Finset.sum_congr rfl fun e _ => ?_)
  subst hdG
  exact takeRows_apply hN wfG p src e f

end Cert.Gcn

end
-- ==== Proof.KernelValue.lean ====
/-
  What the idealized kernel program's result array holds, as one function of the launch contents.

  The program is three tiled regions among stretches of host operations.  The first stretch computes the edge words
  and the node coefficients (kept here as the contents of their buffers after that stretch, unopened); region 0
  writes the projected features with every row scaled by its coefficient; the next stretch gathers rows by the
  wrapped source words and sums them from zero into the rows the raw destination words read as; region 1 scales,
  adds the bias, takes the positive part, projects and scales again; the last stretch gathers and sums once more;
  region 2 scales, adds the bias and takes the row-wise logarithm of the softmax.  Each buffer a region reads is
  walked back to the stretch that wrote it: a stretch leaves alone every buffer it does not write, and a region
  leaves alone everything but its output array.
-/
import proofs.«134963_j35364760715853_2_alg».proof.Proof.Gen.KernelIdeal.Frame
import proofs.«134963_j35364760715853_2_alg».proof.Proof.Spec
import proofs.«134963_j35364760715853_2_alg».proof.Proof.HostForms
import Idealize.ShloMosaic.Lib.StableHlo.Run
import Idealize.ShloMosaic.PureOps.Ideal.Laws

set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg) (c : Dev nD)

theorem hN : 0 < 100000 := by decide

/-! ## The edge words as columns -/

/-- The words with every negative one wrapped (the number of rows added), as a column: what a gather reads rows by. -/
def wrapCol (w : S3300000.Idx → BitVec 32) : Words 3300000 :=
  broadcastInDim S3300000x1 ![0] bcast_S3300000_S3300000x1_0
    (select (cmpi .slt w (broadcastInDim S3300000 ![] bcast_S_S3300000 (constantI S_ 32 0#32)))
      (addi w (broadcastInDim S3300000 ![] bcast_S_S3300000 (constantI S_ 32 100000#32))) w)

/-- The raw words as a column: what a sum into rows lands by. -/
def rawCol (w : S3300000.Idx → BitVec 32) : Words 3300000 :=
  broadcastInDim S3300000x1 ![0] bcast_S3300000_S3300000x1_0 w

/-! ## Buffers carried through stretches and regions -/

theorem src4 : W4 m ρ c (Proc.devRef .tc main_v3) = W1 m ρ c (Proc.devRef .tc main_v3) :=
  (W4_of_ne m ρ c main_v3 (by decide)).trans (by
    show StableHlo.after hostOps0_2 (StableHlo.after hostOps0_1 (W1 m ρ c)) (Proc.devRef .tc main_v3) = _
    after_results)

theorem dst4 : W4 m ρ c (Proc.devRef .tc main_v6) = W1 m ρ c (Proc.devRef .tc main_v6) :=
  (W4_of_ne m ρ c main_v6 (by decide)).trans (by
    show StableHlo.after hostOps0_2 (StableHlo.after hostOps0_1 (W1 m ρ c)) (Proc.devRef .tc main_v6) = _
    after_results)

theorem src6 : W6 m ρ c (Proc.devRef .tc main_v3) = W1 m ρ c (Proc.devRef .tc main_v3) :=
  (W6_of_ne m ρ c main_v3 (by decide)).trans (Eq.trans (b := W4 m ρ c (Proc.devRef .tc main_v3)) (by
    show StableHlo.after hostOps1 (W4 m ρ c) (Proc.devRef .tc main_v3) = W4 m ρ c (Proc.devRef .tc main_v3)
    after_results) (src4 m ρ c))

theorem dst6 : W6 m ρ c (Proc.devRef .tc main_v6) = W1 m ρ c (Proc.devRef .tc main_v6) :=
  (W6_of_ne m ρ c main_v6 (by decide)).trans (Eq.trans (b := W4 m ρ c (Proc.devRef .tc main_v6)) (by
    show StableHlo.after hostOps1 (W4 m ρ c) (Proc.devRef .tc main_v6) = W4 m ρ c (Proc.devRef .tc main_v6)
    after_results) (dst4 m ρ c))

/-- The coefficient column is an input of region 0. -/
theorem col4 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem col5 : W5 m ρ c (Proc.devRef .tc main_v15) = W3 m ρ c (Proc.devRef .tc main_v15) := by
  refine Eq.trans ?_ (col4 m ρ c)
  show StableHlo.after hostOps1 (W4 m ρ c) (Proc.devRef .tc main_v15) = _
  after_results

/-- The coefficient column is an input of region 1. -/
theorem col6 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (col5 m ρ c)

theorem col7 : W7 m ρ c (Proc.devRef .tc main_v15) = W3 m ρ c (Proc.devRef .tc main_v15) := by
  refine Eq.trans ?_ (col6 m ρ c)
  show StableHlo.after hostOps2 (W6 m ρ c) (Proc.devRef .tc main_v15) = _
  after_results

/-! ## The arguments where the regions and the stretches read them -/

theorem features3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem weights3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem bias4 : W4 m ρ c (Proc.devRef .tc main_arg3) = m ((c : Thread nD τ).loc main_arg3) :=
  (W4_of_ne m ρ c main_arg3 (by decide)).trans (by
    show StableHlo.after hostOps0_2 (StableHlo.after hostOps0_1 (StableHlo.after hostOps0 (W0 m ρ c))) (Proc.devRef .tc main_arg3) = _
    after_results)

theorem weights5 : W5 m ρ c (Proc.devRef .tc main_arg4) = m ((c : Thread nD τ).loc main_arg4) := by
  refine Eq.trans (b := W4 m ρ c (Proc.devRef .tc main_arg4)) ?_ ((W4_of_ne m ρ c main_arg4 (by decide)).trans ?_)
  · show StableHlo.after hostOps1 (W4 m ρ c) (Proc.devRef .tc main_arg4) = _
    after_results
  · show StableHlo.after hostOps0_2 (StableHlo.after hostOps0_1 (StableHlo.after hostOps0 (W0 m ρ c))) (Proc.devRef .tc main_arg4) = _
    after_results

theorem bias6 : W6 m ρ c (Proc.devRef .tc main_arg5) = m ((c : Thread nD τ).loc main_arg5) := by
  refine (W6_of_ne m ρ c main_arg5 (by decide)).trans ?_
  refine Eq.trans (b := W4 m ρ c (Proc.devRef .tc main_arg5)) ?_ ((W4_of_ne m ρ c main_arg5 (by decide)).trans ?_)
  · show StableHlo.after hostOps1 (W4 m ρ c) (Proc.devRef .tc main_arg5) = _
    after_results
  · show StableHlo.after hostOps0_2 (StableHlo.after hostOps0_1 (StableHlo.after hostOps0 (W0 m ρ c))) (Proc.devRef .tc main_arg5) = _
    after_results

/-- The first bias as the row region 1 reads. -/
theorem biasRow5 : W5 m ρ c (Proc.devRef .tc main_v28)
    = shapeCast S1x64 (m ((c : Thread nD τ).loc main_arg3) : S64.Idx → EReal) shapeCasts_S64_S1x64 := by
  rw [← bias4 m ρ c]
  show StableHlo.after hostOps1 (W4 m ρ c) (Proc.devRef .tc main_v28) = _
  after_results
  rfl

/-- The second bias as the row region 2 reads. -/
theorem biasRow7 : W7 m ρ c (Proc.devRef .tc main_v41)
    = shapeCast S1x16 (m ((c : Thread nD τ).loc main_arg5) : S16.Idx → EReal) shapeCasts_S16_S1x16 := by
  rw [← bias6 m ρ c]
  show StableHlo.after hostOps2 (W6 m ρ c) (Proc.devRef .tc main_v41) = _
  after_results
  rfl

/-! ## The two stretches that gather and sum -/

theorem zero64 (i : S100000x64.Idx) :
    broadcastInDim S100000x64 ![] bcast_S_S100000x64 (constant (F := Ideal) S_ .f32 0x00000000#32) i = 0 :=
  Ideal.ofBits_zero_f32

theorem zero16 (i : S100000x16.Idx) :
    broadcastInDim S100000x16 ![] bcast_S_S100000x16 (constant (F := Ideal) S_ .f32 0x00000000#32) i = 0 :=
  Ideal.ofBits_zero_f32

/-- After the first gather-and-sum stretch: the rows region 0 wrote, gathered and summed. -/
theorem agg1 : W5 m ρ c (Proc.devRef .tc main_v27)
    = gatherSum hN (wrapCol (W1 m ρ c (Proc.devRef .tc main_v3))) (rawCol (W1 m ρ c (Proc.devRef .tc main_v6)))
        (W4 m ρ c (Proc.devRef .tc main_v16) : S100000x64.Idx → EReal) := by
  rw [← src4 m ρ c, ← dst4 m ρ c]
  refine Eq.trans ?_ (scatter_gather_eq hN scatter_S100000x64_S3300000x1_S3300000x64_1_0_0_1
    scatter_S100000x64_S3300000x1_S3300000x64_1_0_0_1.wf rfl
    gather_S100000x64_S3300000x1_S3300000x64_1_0_n_n_0_1_164 gather_S100000x64_S3300000x1_S3300000x64_1_0_n_n_0_1_164.wf rfl
    _ zero64 _ _ _)
  show StableHlo.after hostOps1 (W4 m ρ c) (Proc.devRef .tc main_v27) = _
  after_results
  rfl

/-- After the second gather-and-sum stretch: the rows region 1 wrote, gathered and summed. -/
theorem agg2 : W7 m ρ c (Proc.devRef .tc main_v40)
    = gatherSum hN (wrapCol (W1 m ρ c (Proc.devRef .tc main_v3))) (rawCol (W1 m ρ c (Proc.devRef .tc main_v6)))
        (W6 m ρ c (Proc.devRef .tc main_v29) : S100000x16.Idx → EReal) := by
  rw [← src6 m ρ c, ← dst6 m ρ c]
  refine Eq.trans ?_ (scatter_gather_eq hN scatter_S100000x16_S3300000x1_S3300000x16_1_0_0_1
    scatter_S100000x16_S3300000x1_S3300000x16_1_0_0_1.wf rfl
    gather_S100000x16_S3300000x1_S3300000x16_1_0_n_n_0_1_116 gather_S100000x16_S3300000x1_S3300000x16_1_0_n_n_0_1_116.wf rfl
    _ zero16 _ _ _)
  show StableHlo.after hostOps2 (W6 m ρ c) (Proc.devRef .tc main_v40) = _
  after_results
  rfl

/-! ## The result -/

/-- The result array, given each region's output array as one function of the arrays the region finds. -/
theorem value
    (h0 : ∀ (V : (c : Dev nD) → (b : Ref sig .tc) → Buf (Elt Ideal) ((c : Thread nD τ).loc b)) (c : Dev nD),
      (dat0 (F := Ideal) V c).arrAt 3 cfg0.N = scaleRows (product (V c main_arg0) (V c main_arg2)) (V c main_v15))
    (h1 : ∀ (V : (c : Dev nD) → (b : Ref sig .tc) → Buf (Elt Ideal) ((c : Thread nD τ).loc b)) (c : Dev nD),
      (dat1 (F := Ideal) V c).arrAt 4 cfg1.N
        = scaleRows (product (relu (affineRows (V c main_v27) (V c main_v15) (V c main_v28))) (V c main_arg4)) (V c main_v15))
    (h2 : ∀ (V : (c : Dev nD) → (b : Ref sig .tc) → Buf (Elt Ideal) ((c : Thread nD τ).loc b)) (c : Dev nD),
      (dat2 (F := Ideal) V c).arrAt 3 cfg2.N = logSoftmaxRows (affineRows (V c main_v40) (V c main_v15) (V c main_v41))) :
    W8 m ρ c (Proc.devRef .tc main_v42)
      = logSoftmaxRows (affineRows (gatherSum hN (wrapCol (W1 m ρ c (Proc.devRef .tc main_v3))) (rawCol (W1 m ρ c (Proc.devRef .tc main_v6)))
          (scaleRows (product (relu (affineRows (gatherSum hN (wrapCol (W1 m ρ c (Proc.devRef .tc main_v3))) (rawCol (W1 m ρ c (Proc.devRef .tc main_v6)))
              (scaleRows (product (m ((c : Thread nD τ).loc main_arg0)) (m ((c : Thread nD τ).loc main_arg2))) (W3 m ρ c (Proc.devRef .tc main_v15))))
            (W3 m ρ c (Proc.devRef .tc main_v15))
            (shapeCast S1x64 (m ((c : Thread nD τ).loc main_arg3) : S64.Idx → EReal) shapeCasts_S64_S1x64)))
            (m ((c : Thread nD τ).loc main_arg4))) (W3 m ρ c (Proc.devRef .tc main_v15))))
        (W3 m ρ c (Proc.devRef .tc main_v15))
        (shapeCast S1x16 (m ((c : Thread nD τ).loc main_arg5) : S16.Idx → EReal) shapeCasts_S16_S1x16)) := by
  have e0 : W4 m ρ c (Proc.devRef .tc main_v16)
      = scaleRows (product (m ((c : Thread nD τ).loc main_arg0)) (m ((c : Thread nD τ).loc main_arg2))) (W3 m ρ c (Proc.devRef .tc main_v15)) := by
    refine ((W4_arr m ρ c 3).trans (h0 (V3 m ρ) c)).trans ?_
    show scaleRows (product (W3 m ρ c (Proc.devRef .tc main_arg0)) (W3 m ρ c (Proc.devRef .tc main_arg2))) (W3 m ρ c (Proc.devRef .tc main_v15)) = _
    rw [features3, weights3]
  have e1 : W6 m ρ c (Proc.devRef .tc main_v29)
      = scaleRows (product (relu (affineRows (W5 m ρ c (Proc.devRef .tc main_v27)) (W5 m ρ c (Proc.devRef .tc main_v15))
          (W5 m ρ c (Proc.devRef .tc main_v28)))) (W5 m ρ c (Proc.devRef .tc main_arg4))) (W5 m ρ c (Proc.devRef .tc main_v15)) :=
    (W6_arr m ρ c 4).trans (h1 (V5 m ρ) c)
  have e2 : W8 m ρ c (Proc.devRef .tc main_v42)
      = logSoftmaxRows (affineRows (W7 m ρ c (Proc.devRef .tc main_v40)) (W7 m ρ c (Proc.devRef .tc main_v15))
          (W7 m ρ c (Proc.devRef .tc main_v41))) :=
    (W8_arr m ρ c 3).trans (h2 (V7 m ρ) c)
  rw [e2, agg2, e1, agg1, e0, col5, col7, biasRow5, biasRow7, weights5]

end Cert.Gcn.KernelValue

end
-- ==== Proof.KernelWords.lean ====
/-
  The kernel program's first stretch computes the edge words and the node coefficients by the same operations as the
  reference does: the contents of those buffers are the reference's stage functions of the launched edge list.
-/
import proofs.«134963_j35364760715853_2_alg».proof.Proof.KernelValue
import proofs.«134963_j35364760715853_2_alg».proof.Proof.RefReadPatched
import proofs.«134963_j35364760715853_2_alg».proof.Proof.LibColumnForms

set_option maxRecDepth 16384

noncomputable section

namespace Cert.Gcn.KernelWords

open Cert.KernelIdeal Cert.KernelIdeal.Gen Cert.Gcn.KernelValue
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The edge list as launched. -/
abbrev edges : (⟨Cert.ReferenceIdeal.S2x3200000, .i32⟩ : BufTy).Contents (Elt Ideal) := m ((c : Thread nD τ).loc main_arg1)

/-- The source words after the first stretch are the reference's. -/
theorem source_words :
    W1 m ρ c (Proc.devRef .tc main_v3) = Cert.ReferenceIdeal.ReadP.val_main_v3 (F := Ideal) (edges m c) := by
  show StableHlo.after hostOps0 (W0 m ρ c) (Proc.devRef .tc main_v3) = _
  after_results
  rfl

/-- The destination words after the first stretch are the reference's. -/
theorem destination_words :
    W1 m ρ c (Proc.devRef .tc main_v6) = Cert.ReferenceIdeal.ReadP.val_main_v6 (F := Ideal) (edges m c) := by
  show StableHlo.after hostOps0 (W0 m ρ c) (Proc.devRef .tc main_v6) = _
  after_results
  rfl

/-- The wrapped source column is the reference's. -/
theorem source_column :
    wrapCol (W1 m ρ c (Proc.devRef .tc main_v3)) = Cert.ReferenceIdeal.ReadP.val_main_v21 (F := Ideal) (edges m c) := by
  rw [source_words]
  rfl

/-- The raw destination column is the reference's. -/
theorem destination_column :
    rawCol (W1 m ρ c (Proc.devRef .tc main_v6)) = Cert.ReferenceIdeal.ReadP.val_main_v9 (F := Ideal) (edges m c) := by
  rw [destination_words]
  rfl

/-! ## The node coefficients, stage by stage -/

set_option maxHeartbeats 1000000 in
/-- The degree: ones summed from zero into the rows the destination words read as. -/
theorem degree_raw :
    W1 m ρ c (Proc.devRef .tc main_v10)
      = Host.scatterAdd (F := Ideal) scatter_S100000_S3300000x1_S3300000_n_0_0_1
          (broadcastInDim S100000 ![] bcast_S_S100000 (constant (F := Ideal) S_ .f32 0x00000000#32))
          (broadcastInDim S3300000x1 ![0] bcast_S3300000_S3300000x1_0 (W1 m ρ c (Proc.devRef .tc main_v6)))
          (broadcastInDim S3300000 ![] bcast_S_S3300000 (constant (F := Ideal) S_ .f32 0x3F800000#32)) := by
  show StableHlo.after hostOps0 (W0 m ρ c) (Proc.devRef .tc main_v10) = _
  after_results

/-- The two programs sum into a vector's rows by the same dimension numbers. -/
theorem degree_dims : scatter_S100000_S3300000x1_S3300000_n_0_0_1
    = Cert.ReferenceIdeal.scatter_S100000_S3300000x1_S3300000_n_0_0_1 := rfl

set_option maxHeartbeats 1000000 in
/-- The degree is the reference's. -/
theorem degree :
    W1 m ρ c (Proc.devRef .tc main_v10) = Cert.ReferenceIdeal.ReadP.val_main_v10 (F := Ideal) (edges m c) := by
  rw [degree_raw, destination_words, degree_dims]
  rfl

set_option maxHeartbeats 1000000 in
/-- "The degree is positive" is the reference's. -/
theorem degree_positive :
    W1 m ρ c (Proc.devRef .tc main_v12) = Cert.ReferenceIdeal.ReadP.val_main_v12 (F := Ideal) (edges m c) := by
  have e : W1 m ρ c (Proc.devRef .tc main_v12)
      = cmpf .ogt (W1 m ρ c (Proc.devRef .tc main_v10) : S100000.Idx → EReal)
          (broadcastInDim S100000 ![] bcast_S_S100000 (constant (F := Ideal) S_ .f32 0x00000000#32)) := by
    show StableHlo.after hostOps0 (W0 m ρ c) (Proc.devRef .tc main_v12) = _
    after_results
  rw [e, degree]
  rfl

set_option maxHeartbeats 400000 in
/-- The inverse square root of the degree is the reference's. -/
theorem degree_rsqrt :
    W1 m ρ c (Proc.devRef .tc main_v13) = Cert.ReferenceIdeal.ReadP.val_main_v13 (F := Ideal) (edges m c) := by
  have e : W1 m ρ c (Proc.devRef .tc main_v13)
      = Host.rsqrt (F := Ideal) (s := S100000) (φ := .f32) (W1 m ρ c (Proc.devRef .tc main_v10)) := by
    show StableHlo.after hostOps0 (W0 m ρ c) (Proc.devRef .tc main_v13) = _
    after_results
  rw [e, degree]
  rfl

set_option maxHeartbeats 400000 in
/-- The zero the guard falls back to is written by the first stretch. -/
theorem fallback_zero :
    W1 m ρ c (Proc.devRef .tc main_cst_2) = constant (F := Ideal) S_ .f32 0x00000000#32 := by
  show StableHlo.after hostOps0 (W0 m ρ c) (Proc.devRef .tc main_cst_2) = _
  after_results

set_option maxHeartbeats 400000 in
/-- The coefficient vector after the second stretch — the inverse square root where the degree is positive, zero
    elsewhere — is the reference's.  (A buffer of the called function is read and written through a change of its
    type's spelling, which is the identity; each is removed by name before the two sides are compared.) -/
theorem coefficient_vector :
    W2 m ρ c (Proc.devRef .tc main_v14) = Cert.ReferenceIdeal.ReadP.val_main_v14 (F := Ideal) (edges m c) := by
  have h12 := degree_positive m ρ c
  have h13 := degree_rsqrt m ρ c
  have h0 := fallback_zero m ρ c
  have t14 : ∀ v, (TRef.of (sig := sig) (T := ⟨S100000, .f32⟩) main_v14).toBuf (Val := Elt Ideal) v = v := fun _ => rfl
  have o12 : ∀ v, (TRef.of (sig := sig) (T := ⟨S100000, .i1⟩) main_v12).ofBuf (Val := Elt Ideal) v = v := fun _ => rfl
  have o13 : ∀ v, (TRef.of (sig := sig) (T := ⟨S100000, .f32⟩) main_v13).ofBuf (Val := Elt Ideal) v = v := fun _ => rfl
  have oc1 : ∀ v, (TRef.of (sig := sig) (T := ⟨S100000, .f32⟩) main_call0_v1).ofBuf (Val := Elt Ideal) v = v := fun _ => rfl
  have tc1 : ∀ v, (TRef.of (sig := sig) (T := ⟨S100000, .f32⟩) main_call0_v1).toBuf (Val := Elt Ideal) v = v := fun _ => rfl
  have oc0 : ∀ v, (TRef.of (sig := sig) (T := ⟨S_, .f32⟩) main_call0_v0).ofBuf (Val := Elt Ideal) v = v := fun _ => rfl
  have tc0 : ∀ v, (TRef.of (sig := sig) (T := ⟨S_, .f32⟩) main_call0_v0).toBuf (Val := Elt Ideal) v = v := fun _ => rfl
  have ok2 : ∀ v, (TRef.of (sig := sig) (T := ⟨S_, .f32⟩) main_cst_2).ofBuf (Val := Elt Ideal) v = v := fun _ => rfl
  show StableHlo.after hostOps0_1 (W1 m ρ c) (Proc.devRef .tc main_v14) = _
  generalize W1 m ρ c = V1 at h12 h13 h0 ⊢
  after_results
  rw [h12, h13, h0, t14, o12, o13, oc1, tc1, oc0, tc0, ok2]
  rfl

set_option maxHeartbeats 400000 in
/-- The coefficient column the regions read holds, in row `n`, the reference's coefficient of node `n`. -/
theorem coefficient_column (n : Fin 100000) :
    (W3 m ρ c (Proc.devRef .tc main_v15) : S100000x1.Idx → EReal) (ix2 n 0)
      = Cert.ReferenceIdeal.ReadP.val_main_v14 (F := Ideal) (edges m c) (ix1 n) := by
  have h14 := coefficient_vector m ρ c
  have e : W3 m ρ c (Proc.devRef .tc main_v15)
      = shapeCast S100000x1 (Cert.ReferenceIdeal.ReadP.val_main_v14 (F := Ideal) (edges m c)) shapeCasts_S100000_S100000x1 := by
    show StableHlo.after hostOps0_2 (W2 m ρ c) (Proc.devRef .tc main_v15) = _
    generalize W2 m ρ c = V2 at h14 ⊢
    after_results
    rw [h14]
    generalize Cert.ReferenceIdeal.ReadP.val_main_v14 (F := Ideal) (edges m c) = d
    rfl
  rw [e]
  exact ValueLayout.shapeCast_a_a1_apply _ _ n 0

end Cert.Gcn.KernelWords

end
-- ==== Proof.RegionProject.lean ====
/-
  The first region of the kernel program as ONE function of whole arrays: each block of 4000 rows of the output is the
  product of the matching rows of the node features with the weight matrix, every row scaled by its coefficient; the
  25 blocks tile the 100000 rows, so the output array is the scaled product of the whole arrays.
-/
import proofs.«134963_j35364760715853_2_alg».proof.Proof.Gen.KernelIdeal.Frame
import proofs.«134963_j35364760715853_2_alg».proof.Proof.Spec
import proofs.«134963_j35364760715853_2_alg».proof.Proof.LibColumnForms
import Idealize.ShloMosaic.Lib.Pipeline.Value
import Idealize.ShloMosaic.Lib.ValueIdx
import Idealize.ShloMosaic.PureOps.Ideal.Laws

set_option maxRecDepth 16384

noncomputable section

namespace Cert.Gcn.RegionProject

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry -/

/-- The contraction's operand indices: the left operand is read at the output's row and the contracted coordinate … -/
theorem lhs_row (i : S4000x64.Idx) (r : dot_S4000x512_S512x64_S4000x64_1_0_0_1_n_n.contr.Idx) :
    (dot_S4000x512_S512x64_S4000x64_1_0_0_1_n_n.lhsIdx i r 0).val = (i 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
theorem lhs_contr (i : S4000x64.Idx) (r : dot_S4000x512_S512x64_S4000x64_1_0_0_1_n_n.contr.Idx) :
    (dot_S4000x512_S512x64_S4000x64_1_0_0_1_n_n.lhsIdx i r 1).val = (r ⟨0, by decide⟩).val :=
  dot_S4000x512_S512x64_S4000x64_1_0_0_1_n_n.lhsIdx_val_of_single rfl i r
/-- … and the right operand at the contracted coordinate and the output's column. -/
theorem rhs_contr (i : S4000x64.Idx) (r : dot_S4000x512_S512x64_S4000x64_1_0_0_1_n_n.contr.Idx) :
    (dot_S4000x512_S512x64_S4000x64_1_0_0_1_n_n.rhsIdx i r 0).val = (r ⟨0, by decide⟩).val :=
  dot_S4000x512_S512x64_S4000x64_1_0_0_1_n_n.rhsIdx_val_of_single rfl i r
theorem rhs_col (i : S4000x64.Idx) (r : dot_S4000x512_S512x64_S4000x64_1_0_0_1_n_n.contr.Idx) :
    (dot_S4000x512_S512x64_S4000x64_1_0_0_1_n_n.rhsIdx i r 1).val = (i 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- The contraction of a block of 4000 rows with the weight matrix into a zero accumulator, at entry `(p, q)`: the sum
    over the 512 shared coordinates of the products of the two entries. -/
theorem contraction_apply (x : FVec Ideal S4000x512 .bf16) (w : FVec Ideal S512x64 .bf16) (p : Fin 4000) (q : Fin 64) :
    matmul dot_S4000x512_S512x64_S4000x64_1_0_0_1_n_n none x w (constant (F := Ideal) S4000x64 .f32 0x00000000#32) (ix2 p q)
      = ∑ k : Fin 512, x (ix2 p k) * w (ix2 k q) := by
  refine (Ideal.matmul_constant_zero_apply dot_S4000x512_S512x64_S4000x64_1_0_0_1_n_n none x w (ix2 p q)).trans ?_
  rw [← Equiv.sum_comp (contrEquiv1 dot_S4000x512_S512x64_S4000x64_1_0_0_1_n_n 512 rfl rfl).symm]
  refine Finset.sum_congr rfl fun k _ => ?_
  have hk := contrEquiv1_symm_val dot_S4000x512_S512x64_S4000x64_1_0_0_1_n_n 512 rfl rfl k
  have el : dot_S4000x512_S512x64_S4000x64_1_0_0_1_n_n.lhsIdx (ix2 p q) ((contrEquiv1 dot_S4000x512_S512x64_S4000x64_1_0_0_1_n_n 512 rfl rfl).symm k) = ix2 p k := funext fun a => Fin.ext (by
    match a with
    | ⟨0, _⟩ => exact lhs_row _ _
    | ⟨1, _⟩ => exact (lhs_contr _ _).trans hk)
  have er : dot_S4000x512_S512x64_S4000x64_1_0_0_1_n_n.rhsIdx (ix2 p q) ((contrEquiv1 dot_S4000x512_S512x64_S4000x64_1_0_0_1_n_n 512 rfl rfl).symm k) = ix2 k q := funext fun a => Fin.ext (by
    match a with
    | ⟨0, _⟩ => exact (rhs_contr _ _).trans hk
    | ⟨1, _⟩ => exact rhs_col _ _)
  rw [el, er]

/-- The body's payload at entry `(p, q)` of a block: the contraction of row `p` of the feature block with column `q`
    of the weights, times the coefficient of row `p` (both format changes are the identity on extended reals). -/
theorem body_apply (x0 : Vec Ideal S4000x512 .f32) (x1 : Vec Ideal S512x64 .f32) (x2 : Vec Ideal S4000x1 .f32)
    (p : Fin 4000) (q : Fin 64) :
    k0_pay1 (F := Ideal) x0 x1 x2 (ix2 p q) = (∑ k : Fin 512, x0 (ix2 p k) * x1 (ix2 k q)) * x2 (ix2 p (0 : Fin 1)) := by
  unfold k0_pay1
  rw [truncf_apply, mulf_apply, shapeCast_self, ValueLayout.broadcastTo_a1_ab_apply, contraction_apply]
  rfl

/-! ## From blocks to the array -/

theorem hz : (![0, 0] : Fin 2 → Nat) = fun _ => 0 := funext fun a => by fin_cases a <;> rfl

/-- The scaled product at an index whose coordinates are `(r, q)`. -/
theorem scaleRows_product_apply (A : S100000x512.Idx → EReal) (W : S512x64.Idx → EReal) (d : S100000x1.Idx → EReal)
    (i : S100000x64.Idx) (r : Fin 100000) (q : Fin 64) (h0 : (i 0).val = r.val) (h1 : (i 1).val = q.val) :
    Cert.Gcn.scaleRows (Cert.Gcn.product A W) d i = (∑ k : Fin 512, A (ix2 r k) * W (ix2 k q)) * d (ix2 r (0 : Fin 1)) := by
  have e : i = ix2 r q := funext fun a => by
    match a with
    | ⟨0, _⟩ => exact Fin.ext h0
    | ⟨1, _⟩ => exact Fin.ext h1
  subst e
  rfl

variable (V : (c : Dev nD) → (b : Ref sig .tc) → Buf (Elt Ideal) ((c : Thread nD τ).loc b))

/-- The whole output array: the product of the features with the weights, every row scaled by its coefficient. -/
abbrev scaled (c : Dev nD) : S100000x64.Idx → EReal :=
  Cert.Gcn.scaleRows (Cert.Gcn.product (V c main_arg0 : S100000x512.Idx → EReal) (V c main_arg2 : S512x64.Idx → EReal))
    (V c main_v15 : S100000x1.Idx → EReal)

/-- The printed index maps, decided over the 25 grid points: the feature, coefficient and output windows sit at
    block row `t`, lane block 0; the weight window is the whole matrix at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ t.val < 25 :=
  (by decide +kernel : ∀ t : Fin grid0.N, _)

/-- WHAT POINT `t` WRITES BACK is block `t` of the scaled product of the arrays as the region finds them. -/
theorem flushed_eq (c : Dev nD) (t : Fin cfg0.N) :
    (dat0 (F := Ideal) V c).flushed 3 t = ((cfg0.win 3).blk t).view.read (Elt Ideal) (scaled V c) := by
  show (cfg0.win 3).cut (grid0.coords t) ((dat0 (F := Ideal) V c).after 3 t) = _
  rw [after0_3]
  unfold out0_3
  rw [View.canon_unit_zero hz]
  simp only [View.ld_unit_zero (S := S4000x512) hz, View.ld_unit_zero (S := S512x64) hz, View.ld_unit_zero (S := S4000x1) hz]
  obtain ⟨e00, e01, e10, e11, e20, e21, e30, e31, ht⟩ := idx_facts t
  funext j
  obtain ⟨p, q, rfl⟩ : ∃ (p : Fin 4000) (q : Fin 64), j = ix2 p q := ⟨j 0, j 1, eq_ix2 j⟩
  have hp : p.val < 4000 := p.isLt
  have hr : t.val * 4000 + p.val < 100000 := by omega
  show k0_pay1 (F := Ideal) (iblk0 V c 0 t) (iblk0 V c 1 t) (iblk0 V c 2 t) (ix2 p q)
    = scaled V c (((cfg0.win 3).blk t).view.emb (ix2 p q))
  refine (body_apply (iblk0 V c 0 t) (iblk0 V c 1 t) (iblk0 V c 2 t) p q).trans ?_
  refine Eq.trans ?_ (scaleRows_product_apply _ _ _ (((cfg0.win 3).blk t).view.emb (ix2 p q)) ⟨t.val * 4000 + p.val, hr⟩ q ?_ ?_).symm
  · have hA : ∀ k : Fin 512, iblk0 V c 0 t (ix2 p k)
        = (V c main_arg0 : S100000x512.Idx → EReal) (ix2 (⟨t.val * 4000 + p.val, hr⟩ : Fin 100000) k) := fun k => by
      show V c main_arg0 (((cfg0.win 0).blk t).view.emb (ix2 p k)) = V c main_arg0 _
      refine congrArg _ (funext fun a => Fin.ext ?_)
      match a with
      | ⟨0, _⟩ => show win0_0.index t (0 : Fin 2) * 4000 + 1 * p.val = t.val * 4000 + p.val; omega
      | ⟨1, _⟩ => show win0_0.index t (1 : Fin 2) * 512 + 1 * k.val = k.val; omega
    have hW : ∀ k : Fin 512, iblk0 V c 1 t (ix2 k q) = (V c main_arg2 : S512x64.Idx → EReal) (ix2 k q) := fun k => by
      show V c main_arg2 (((cfg0.win 1).blk t).view.emb (ix2 k q)) = V c main_arg2 _
      refine congrArg _ (funext fun a => Fin.ext ?_)
      match a with
      | ⟨0, _⟩ => show win0_1.index t (0 : Fin 2) * 512 + 1 * k.val = k.val; omega
      | ⟨1, _⟩ => show win0_1.index t (1 : Fin 2) * 64 + 1 * q.val = q.val; omega
    have hD : iblk0 V c 2 t (ix2 p (0 : Fin 1))
        = (V c main_v15 : S100000x1.Idx → EReal) (ix2 (⟨t.val * 4000 + p.val, hr⟩ : Fin 100000) (0 : Fin 1)) := by
      show V c main_v15 (((cfg0.win 2).blk t).view.emb (ix2 p (0 : Fin 1))) = V c main_v15 _
      refine congrArg _ (funext fun a => Fin.ext ?_)
      match a with
      | ⟨0, _⟩ => show win0_2.index t (0 : Fin 2) * 4000 + 1 * p.val = t.val * 4000 + p.val; omega
      | ⟨1, _⟩ => show win0_2.index t (1 : Fin 2) * 1 + 1 * 0 = 0; omega
    exact congrArg₂ (· * ·) (Finset.sum_congr rfl fun k _ => congrArg₂ (· * ·) (hA k) (hW k)) hD
  · show win0_3.index t (0 : Fin 2) * 4000 + 1 * p.val = t.val * 4000 + p.val; omega
  · show win0_3.index t (1 : Fin 2) * 64 + 1 * q.val = q.val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Every row is covered: row `r` lies in the block of point `r / 4000`, and every point writes its block back. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by have hN : cfg0.N = 25 := N_0; omega⟩, rfl⟩
  obtain ⟨e00, e01, e10, e11, e20, e21, e30, e31, ht'⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- THE OUTPUT ARRAY after the region: the product of the features with the weights, every row scaled by its
    coefficient, of the arrays as the region finds them. -/
theorem final (c : Dev nD) :
    (dat0 (F := Ideal) V c).arrAt 3 cfg0.N
      = Cert.Gcn.scaleRows (Cert.Gcn.product (V c main_arg0) (V c main_arg2)) (V c main_v15) :=
  (dat0 (F := Ideal) V c).arrAt_eq_of_cover 3 (scaled V c) (fun t _ => flushed_eq V c t) cover

end Cert.Gcn.RegionProject

end
-- ==== Proof.RegionHidden.lean ====
/-
  The hidden layer of the two-layer graph convolution, as the second kernel region computes it: from the aggregated
  features `agg` [N, 64], the coefficient column `d` [N, 1], the bias row `b` [1, 64] and the second weight matrix
  `w2` [64, 16], the region leaves in its output array, at (n, j),

      (∑ k : Fin 64, max (agg (n, k) * d (n, 0) + b (0, k)) 0 * w2 (k, j)) * d (n, 0),

  that is, the rows of `relu (agg · d + b) · w2` scaled by `d`.  The region walks 20 row blocks of 5000 rows; the
  bias and the weights are whole at every point.
-/
import proofs.«134963_j35364760715853_2_alg».proof.Proof.Gen.KernelIdeal.Frame
import proofs.«134963_j35364760715853_2_alg».proof.Proof.Spec
import proofs.«134963_j35364760715853_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionHidden

open Cert.KernelIdeal Cert.KernelIdeal.Gen Idealize.ShloMosaic Idealize.ShloMosaic.TcCoe Idealize.SL.Sem
open Idealize.ShloMosaic.ValueIdx Idealize.ShloMosaic.ValueLayout
open Idealize.ShloMosaic.Pipeline (Dat)

/-! ## The block product's index maps -/

/-- The dimension numbers of the block product [5000, 64] · [64, 16]. -/
abbrev blockDot : DotDims S5000x64 S64x16 S5000x16 := dot_S5000x64_S64x16_S5000x16_1_0_0_1_n_n

/-- The left factor is read in the output's row, -/
theorem lhs_row (i : S5000x16.Idx) (s : blockDot.contr.Idx) : (blockDot.lhsIdx i s 0).val = (i 0).val := by
  unfold DotDims.lhsIdx
  rw [dif_neg (show ¬(0 : Fin S5000x64.rank) ∈ blockDot.lhsBatch by decide),
    dif_pos (show (0 : Fin S5000x64.rank) ∈ blockDot.lhsNonContracting by decide)]
  rfl
/-- at the contracted position; -/
theorem lhs_col (i : S5000x16.Idx) (s : blockDot.contr.Idx) : (blockDot.lhsIdx i s 1).val = (s ⟨0, by decide⟩).val :=
  blockDot.lhsIdx_val_of_single rfl i s
/-- the right factor at the contracted position, -/
theorem rhs_row (i : S5000x16.Idx) (s : blockDot.contr.Idx) : (blockDot.rhsIdx i s 0).val = (s ⟨0, by decide⟩).val :=
  blockDot.rhsIdx_val_of_single rfl i s
/-- in the output's column. -/
theorem rhs_col (i : S5000x16.Idx) (s : blockDot.contr.Idx) : (blockDot.rhsIdx i s 1).val = (i 1).val := by
  unfold DotDims.rhsIdx
  rw [dif_neg (show ¬(1 : Fin S64x16.rank) ∈ blockDot.rhsBatch by decide),
    dif_pos (show (1 : Fin S64x16.rank) ∈ blockDot.rhsNonContracting by decide)]
  rfl

/-- The block product into a zero accumulator, read at (p, q), is the sum over the 64 contracted positions. -/
theorem blockProduct_apply (l : FVec Ideal S5000x64 .bf16) (r : FVec Ideal S64x16 .bf16) (p : Fin 5000) (q : Fin 16) :
    matmul blockDot none l r (constant (F := Ideal) S5000x16 .f32 0x00000000#32) (ix2 p q)
      = ∑ k : Fin 64, l (ix2 p k) * r (ix2 k q) := by
  simp only [matmul]
  rw [Ideal.matmul_constant_zero_apply, ← Equiv.sum_comp (contrEquiv1 blockDot 64 rfl rfl).symm]
  refine Finset.sum_congr rfl fun k _ => ?_
  have hk := contrEquiv1_symm_val blockDot 64 rfl rfl k
  have el : blockDot.lhsIdx (ix2 p q) ((contrEquiv1 blockDot 64 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 64 rfl rfl).symm k) = ix2 k q := funext fun a => Fin.ext (by
    match a with
    | ⟨0, _⟩ => exact (rhs_row _ _).trans hk
    | ⟨1, _⟩ => exact rhs_col _ _)
  rw [el, er]

/-! ## The body's arithmetic at an index -/

/-- The value the body stores, read at (p, q) of its block: the loaded feature block scaled by the coefficient
    column, plus the bias row, its positive part, times the weights, scaled by the coefficient column (loaded a
    second time). -/
theorem payload_apply (x0 : Vec Ideal S5000x64 .f32) (x1 : Vec Ideal S5000x1 .f32) (x2 : Vec Ideal S1x64 .f32)
    (x3 : Vec Ideal S64x16 .f32) (x4 : Vec Ideal S5000x1 .f32) (p : Fin 5000) (q : Fin 16) :
    k1_pay1 x0 x1 x2 x3 x4 (ix2 p q)
      = (∑ k : Fin 64, max (x0 (ix2 p k) * x1 (ix2 p 0) + x2 (ix2 0 k)) 0 * x3 (ix2 k q)) * x4 (ix2 p 0) := by
  unfold k1_pay1
  simp only [shapeCast_self]
  rw [truncf_apply, mulf_apply, broadcastTo_a1_ab_apply, blockProduct_apply]
  congr 1
  refine Finset.sum_congr rfl fun k _ => ?_
  rw [truncf_apply, truncf_apply, maximumf_apply, addf_apply, mulf_apply, broadcast_apply,
    broadcastTo_a1_ab_apply, broadcastTo_1b_ab_apply]
  show max _ (Ideal.ofBits .f32 0x00000000#32) * _ = _
  rw [Ideal.ofBits_zero_f32]

/-- The stored value at (p, q) of a block is the hidden layer's entry at (n, q), for any whole arrays whose entries the
    loaded blocks hold: row p of the feature and coefficient blocks is row n of the arrays, the bias and the weights
    are whole. -/
theorem payload_eq_hidden (A : Mat 100000 64) (D : Mat 100000 1) (B : Mat 1 64) (W : Mat 64 16)
    (x0 : Vec Ideal S5000x64 .f32) (x1 : Vec Ideal S5000x1 .f32) (x2 : Vec Ideal S1x64 .f32) (x3 : Vec Ideal S64x16 .f32)
    (n : Fin 100000) (p : Fin 5000) (q : Fin 16)
    (h0 : ∀ k : Fin 64, x0 (ix2 p k) = A (ix2 n k)) (h1 : x1 (ix2 p 0) = D (ix2 n 0))
    (h2 : ∀ k : Fin 64, x2 (ix2 0 k) = B (ix2 0 k)) (h3 : ∀ k : Fin 64, x3 (ix2 k q) = W (ix2 k q)) :
    k1_pay1 x0 x1 x2 x3 x1 (ix2 p q) = scaleRows (product (relu (affineRows A D B)) W) D (ix2 n q) := by
  rw [payload_apply, h1]
  simp only [h0, h2, h3]
  rfl

/-! ## From the blocks to the array -/

theorem zeros2 : (![0, 0] : Fin 2 → Nat) = fun _ => 0 := funext fun a => by fin_cases a <;> rfl

/-- The printed index maps, decided over the 20 points: the feature, coefficient and output windows sit at row block
    `t`, the bias and the weights at block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Region
variable (V : (c : Dev nD) → (b : Ref sig .tc) → Buf (Elt Ideal) ((c : Thread nD τ).loc b))

/-- The hidden layer of the arrays the region finds. -/
abbrev hidden (c : Dev nD) : Mat 100000 16 :=
  scaleRows (product (relu (affineRows (V c main_v27) (V c main_v15) (V c main_v28))) (V c main_arg4)) (V c main_v15)

/-- What point `t` writes back is block `t` of the hidden layer. -/
theorem flushed_eq (c : Dev nD) (t : Fin cfg1.N) :
    (dat1 (F := Ideal) V c).flushed 4 t = ((cfg1.win 4).blk t).view.read (Elt Ideal) (hidden V c) := by
  show (cfg1.win 4).cut (grid1.coords t) ((dat1 V c).after 4 t) = _
  rw [after1_4]
  unfold out1_4
  rw [View.canon_unit_zero zeros2]
  simp only [View.ld_unit_zero (S := S5000x64) zeros2, View.ld_unit_zero (S := S5000x1) zeros2,
    View.ld_unit_zero (S := S1x64) zeros2, View.ld_unit_zero (S := S64x16) zeros2]
  have ht : t.val < 20 := lt_of_lt_of_eq t.isLt N_1
  obtain ⟨a0, a1, d0, d1, b0, b1, w0, w1, o0, o1⟩ := index_facts t
  funext j
  obtain ⟨p, q, rfl⟩ : ∃ (p : Fin 5000) (q : Fin 16), j = ix2 p q := ⟨j 0, j 1, eq_ix2 j⟩
  have hp : p.val < 5000 := p.isLt
  show k1_pay1 (iblk1 V c 0 t) (iblk1 V c 1 t) (iblk1 V c 2 t) (iblk1 V c 3 t) (iblk1 V c 1 t) (ix2 p q)
    = hidden V c (((cfg1.win 4).blk t).view.emb (ix2 p q))
  have hrow : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 16 + 1 * q.val = q.val; omega
  rw [hrow]
  refine payload_eq_hidden (V c main_v27) (V c main_v15) (V c main_v28) (V c main_arg4) _ _ _ _ _ p q
    (fun k => ?_) ?_ (fun k => ?_) (fun k => ?_)
  · show V c main_v27 (((cfg1.win 0).blk t).view.emb (ix2 p k)) = V c main_v27 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v15 (((cfg1.win 1).blk t).view.emb (ix2 p 0)) = V c main_v15 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v28 (((cfg1.win 2).blk t).view.emb (ix2 0 k)) = V c main_v28 _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg4 (((cfg1.win 3).blk t).view.emb (ix2 k q)) = V c main_arg4 _
    refine congrArg _ (funext fun a => Fin.ext ?_)
    match a with
    | ⟨0, _⟩ => show win1_3.index t (0 : Fin 2) * 64 + 1 * k.val = k.val; omega
    | ⟨1, _⟩ => show win1_3.index t (1 : Fin 2) * 16 + 1 * q.val = q.val; omega

/-- An index of the array is in point `t`'s block iff each coordinate is in the block's range on its axis. -/
theorem mem_blk (t : Fin cfg1.N) (i : S100000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v29).slice (win1_4.rect t)).set ↔ _
  rw [View.set_slice_whole, Rect.mem_set_unit]
  exact Iff.rfl

/-- Every row is in the block of the point its number divided by 5000 names. -/
theorem covered (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, o0, o1⟩ := index_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 16 ≤ (i 1).val ∧ (i 1).val < win1_4.index t (1 : Fin 2) * 16 + 16
    omega

/-- THE ARRAY the region leaves: the hidden layer of the arrays it finds. -/
theorem final (c : Dev nD) :
    (dat1 (F := Ideal) V c).arrAt 4 cfg1.N
      = Cert.Gcn.scaleRows (Cert.Gcn.product (Cert.Gcn.relu (Cert.Gcn.affineRows (V c main_v27) (V c main_v15) (V c main_v28))) (V c main_arg4)) (V c main_v15) :=
  (dat1 (F := Ideal) V c).arrAt_eq_of_cover 4 (hidden V c) (fun t _ => flushed_eq V c t) covered

end Region

end Cert.Gcn.RegionHidden

end
-- ==== Proof.RegionLogSoftmax.lean ====
/-
  The last region of the kernel program, read as ONE function of whole arrays: every row of the aggregated array is
  scaled by its coefficient, the bias row is added, and the logarithm of the softmax is taken along the row.

  The body works on a block of 5000 rows at a time.  Nothing it computes mixes two rows, so the block a grid point
  writes back is the same rows of the whole-array result, and the twenty blocks tile the array.
-/
import proofs.«134963_j35364760715853_2_alg».proof.Proof.Gen.KernelIdeal.Frame
import proofs.«134963_j35364760715853_2_alg».proof.Proof.Spec
import proofs.«134963_j35364760715853_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.RegionLogSoftmax

open Cert.KernelIdeal Cert.KernelIdeal.Gen Idealize.ShloMosaic Idealize.ShloMosaic.TcCoe Idealize.SL.Sem
open Idealize.ShloMosaic.ValueIdx Idealize.ShloMosaic.ValueLayout
open Idealize.ShloMosaic.Pipeline (Dat)

/-! ## The body's arithmetic on one block -/

/-- The block's rows scaled by their coefficients plus the bias row, as the body spells it. -/
def affineBlock (x0 : Vec Ideal S5000x16 .f32) (x1 : Vec Ideal S5000x1 .f32) (x2 : Vec Ideal S1x16 .f32) :
    FVec Ideal S5000x16 .f32 :=
  addf (mulf (shapeCast S5000x16 x0 shapeCasts_S5000x16_S5000x16)
        (broadcastTo S5000x16 (shapeCast S5000x1 x1 shapeCasts_S5000x1_S5000x1) broadcasts_S5000x1_S5000x16))
    (broadcastTo S5000x16 (shapeCast S1x16 x2 shapeCasts_S1x16_S1x16) broadcasts_S1x16_S5000x16)

/-- The row maxima of a block, as the body spells them: the lane maximum folded from minus infinity, compared once
    more with minus infinity. -/
def maxBlock (z : FVec Ideal S5000x16 .f32) : FVec Ideal S5000 .f32 :=
  maximumf (broadcast S5000 (Scalar.ofBits .f32 0xFF800000#32))
    (multiReduction .maximumf [1] S5000 z 0xFF800000#32 reduces_S5000x16_S5000 (.inl rfl) rfl)

/-- The block shifted by its row maxima. -/
def shiftBlock (z : FVec Ideal S5000x16 .f32) : FVec Ideal S5000x16 .f32 :=
  subf z (broadcastTo S5000x16 (shapeCast S5000x1 (maxBlock z) shapeCasts_S5000_S5000x1) broadcasts_S5000x1_S5000x16)

/-- The shifted block minus the logarithm of its rows' sums of exponentials. -/
def logSoftmaxBlock (z : FVec Ideal S5000x16 .f32) : FVec Ideal S5000x16 .f32 :=
  subf (shiftBlock z)
    (broadcastTo S5000x16
      (log (shapeCast S5000x1
        (multiReduction .add [1] S5000 (exp (shiftBlock z)) 0x00000000#32 reduces_S5000x16_S5000 (.inl rfl) rfl)
        shapeCasts_S5000_S5000x1))
      broadcasts_S5000x1_S5000x16)

/-- The body's payload is these four steps in a row. -/
theorem payload_eq (x0 : Vec Ideal S5000x16 .f32) (x1 : Vec Ideal S5000x1 .f32) (x2 : Vec Ideal S1x16 .f32) :
    k2_pay1 x0 x1 x2 = logSoftmaxBlock (affineBlock x0 x1 x2) := rfl

/-- The affine step at an index. -/
theorem affineBlock_apply (x0 : Vec Ideal S5000x16 .f32) (x1 : Vec Ideal S5000x1 .f32) (x2 : Vec Ideal S1x16 .f32)
    (p : Fin 5000) (k : Fin 16) :
    affineBlock x0 x1 x2 (ix2 p k) = x0 (ix2 p k) * x1 (ix2 p (0 : Fin 1)) + x2 (ix2 (0 : Fin 1) k) := by
  unfold affineBlock
  rw [addf_apply, mulf_apply, shapeCast_self, shapeCast_self, shapeCast_self,
    broadcastTo_a1_ab_apply, broadcastTo_1b_ab_apply]

/-- The index of lane `k` of row `p`, as a reduction along the lanes names it. -/
theorem lift_row (p : Fin 5000) (k : Fin 16) : reduces_S5000x16_S5000.lift (ix1 p) k = ix2 p k := by
  funext c; apply Fin.ext
  match c with
  | ⟨0, _⟩ => rfl
  | ⟨1, _⟩ => rfl

/-- The row maximum at a row. -/
theorem maxBlock_apply (z : FVec Ideal S5000x16 .f32) (p : Fin 5000) :
    maxBlock z (ix1 p) = Cert.Gcn.rowMax (N := 5000) (C := 16) z p := by
  unfold maxBlock Cert.Gcn.rowMax
  rw [maximumf_apply, broadcast_apply]
  refine congrArg (max _) ?_
  refine (Ideal.multiReduction_maximumf_single z 0xFF800000#32 reduces_S5000x16_S5000 (.inl rfl) rfl (ix1 p)).trans ?_
  exact congrArg (fun f : Fin 16 → EReal => Finset.fold max Cert.Gcn.negInf f Finset.univ)
    (funext fun k => congrArg z (lift_row p k))

/-- The shifted block at an index. -/
theorem shiftBlock_apply (z : FVec Ideal S5000x16 .f32) (p : Fin 5000) (k : Fin 16) :
    shiftBlock z (ix2 p k) = z (ix2 p k) - Cert.Gcn.rowMax (N := 5000) (C := 16) z p := by
  unfold shiftBlock
  rw [subf_apply, broadcastTo_a1_ab_apply, shapeCast_a_a1_apply, maxBlock_apply]

/-- The body's result on a block at an index: the logarithm of the softmax of the block's rows. -/
theorem logSoftmaxBlock_apply (z : FVec Ideal S5000x16 .f32) (p : Fin 5000) (q : Fin 16) :
    logSoftmaxBlock z (ix2 p q) = Cert.Gcn.logSoftmaxRows (N := 5000) (C := 16) z (ix2 p q) := by
  unfold logSoftmaxBlock Cert.Gcn.logSoftmaxRows
  rw [subf_apply, shiftBlock_apply, broadcastTo_a1_ab_apply]
  refine congrArg (fun u => z (ix2 p q) - Cert.Gcn.rowMax (N := 5000) (C := 16) z p - u) ?_
  show Ideal.log (shapeCast S5000x1
        (multiReduction .add [1] S5000 (exp (shiftBlock z)) 0x00000000#32 reduces_S5000x16_S5000 (.inl rfl) rfl)
        shapeCasts_S5000_S5000x1 (ix2 p (0 : Fin 1))) = _
  rw [shapeCast_a_a1_apply]
  refine congrArg Ideal.log ?_
  refine (Ideal.multiReduction_add_single (exp (shiftBlock z)) 0x00000000#32 reduces_S5000x16_S5000 (.inl rfl) rfl (ix1 p)).trans ?_
  refine Eq.trans ?_ (zero_add _).symm
  refine Finset.sum_congr rfl fun k _ => ?_
  show Ideal.exp (shiftBlock z (reduces_S5000x16_S5000.lift (ix1 p) k)) = _
  rw [lift_row p k]
  exact congrArg Ideal.exp (shiftBlock_apply z p k)

/-- The body's payload on blocks, at an index. -/
theorem payload_apply (x0 : Vec Ideal S5000x16 .f32) (x1 : Vec Ideal S5000x1 .f32) (x2 : Vec Ideal S1x16 .f32)
    (p : Fin 5000) (q : Fin 16) :
    k2_pay1 x0 x1 x2 (ix2 p q)
      = Cert.Gcn.logSoftmaxRows (N := 5000) (C := 16) (affineBlock x0 x1 x2) (ix2 p q) := by
  rw [payload_eq, logSoftmaxBlock_apply]

/-! ## Rows do not mix -/

/-- The logarithm of the softmax at `(r, q)` reads only row `r`. -/
theorem logSoftmaxRows_row {N N' C : ℕ} (z : Cert.Gcn.Mat N C) (z' : Cert.Gcn.Mat N' C) (r : Fin N) (r' : Fin N') (q : Fin C)
    (h : ∀ k : Fin C, z (ix2 r k) = z' (ix2 r' k)) :
    Cert.Gcn.logSoftmaxRows z (ix2 r q) = Cert.Gcn.logSoftmaxRows z' (ix2 r' q) := by
  show (z (ix2 r q) - Cert.Gcn.rowMax z r) - Ideal.log (0 + ∑ k : Fin C, Ideal.exp (z (ix2 r k) - Cert.Gcn.rowMax z r))
    = (z' (ix2 r' q) - Cert.Gcn.rowMax z' r') - Ideal.log (0 + ∑ k : Fin C, Ideal.exp (z' (ix2 r' k) - Cert.Gcn.rowMax z' r'))
  unfold Cert.Gcn.rowMax
  simp only [h]

/-! ## From blocks to the array -/

theorem hz : (![0, 0] : Fin 2 → Nat) = fun _ => 0 := funext fun a => by fin_cases a <;> rfl

/-- The printed index maps, decided over the grid: the three row-blocked windows sit at block `t` of the rows and at
    lane block zero; the bias window is the whole array at every point. -/
theorem index_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Row `p` of block `t` is row `5000 t + p` of the array. -/
def rowAt (t : Fin cfg2.N) (p : Fin 5000) : Fin 100000 :=
  ⟨t.val * 5000 + p.val, by
    have ht : t.val < 20 := lt_of_lt_of_eq t.isLt N_2
    have hp := p.isLt
    omega⟩

section
variable (V : (c : Dev nD) → (b : Ref sig .tc) → Buf (Elt Ideal) ((c : Thread nD τ).loc b)) (c : Dev nD)

/-- The whole-array result: the logarithm of the softmax of the rows of the aggregated array scaled by the
    coefficient column plus the bias row. -/
abbrev G : S100000x16.Idx → EReal :=
  Cert.Gcn.logSoftmaxRows (N := 100000) (C := 16)
    (Cert.Gcn.affineRows (N := 100000) (C := 16) (V c main_v40 : S100000x16.Idx → EReal)
      (V c main_v15 : S100000x1.Idx → EReal) (V c main_v41 : S1x16.Idx → EReal))

/-- The aggregated array's block at a point, read at an index. -/
theorem agg_block (t : Fin cfg2.N) (p : Fin 5000) (k : Fin 16) :
    (iblk2 V c 0 t : S5000x16.Idx → EReal) (ix2 p k) = (V c main_v40 : S100000x16.Idx → EReal) (ix2 (rowAt t p) k) := by
  obtain ⟨e30, e31, e00, e01, e10, e11, e20, e21⟩ := index_facts t
  show (V c main_v40 : S100000x16.Idx → EReal) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 16 + 1 * k.val = k.val; omega

/-- The coefficient column's block at a point, read at an index. -/
theorem coeff_block (t : Fin cfg2.N) (p : Fin 5000) :
    (iblk2 V c 1 t : S5000x1.Idx → EReal) (ix2 p (0 : Fin 1)) = (V c main_v15 : S100000x1.Idx → EReal) (ix2 (rowAt t p) (0 : Fin 1)) := by
  obtain ⟨e30, e31, e00, e01, e10, e11, e20, e21⟩ := index_facts t
  show (V c main_v15 : S100000x1.Idx → EReal) (((cfg2.win 1).blk t).view.emb (ix2 p (0 : Fin 1))) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * 0 = 0; omega

/-- The bias row's block at a point, read at an index: the whole row. -/
theorem bias_block (t : Fin cfg2.N) (k : Fin 16) :
    (iblk2 V c 2 t : S1x16.Idx → EReal) (ix2 (0 : Fin 1) k) = (V c main_v41 : S1x16.Idx → EReal) (ix2 (0 : Fin 1) k) := by
  obtain ⟨e30, e31, e00, e01, e10, e11, e20, e21⟩ := index_facts t
  show (V c main_v41 : S1x16.Idx → EReal) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 16 + 1 * k.val = k.val; omega

/-- Where the output block's element `(p, q)` sits in the array. -/
theorem out_emb (t : Fin cfg2.N) (p : Fin 5000) (q : Fin 16) :
    (((cfg2.win 3).blk t).view.emb (ix2 p q) : S100000x16.Idx) = ix2 (rowAt t p) q := by
  obtain ⟨e30, e31, e00, e01, e10, e11, e20, e21⟩ := index_facts t
  refine funext fun a => Fin.ext ?_
  match a with
  | ⟨0, _⟩ => show win2_3.index t (0 : Fin 2) * 5000 + 1 * p.val = t.val * 5000 + p.val; omega
  | ⟨1, _⟩ => show win2_3.index t (1 : Fin 2) * 16 + 1 * q.val = q.val; omega

/-- What point `t` writes back is block `t` of the whole-array result. -/
theorem flushed_eq (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S5000x16) hz, View.ld_unit_zero (S := S5000x1) hz, View.ld_unit_zero (S := S1x16) hz]
  funext j
  obtain ⟨p, q, rfl⟩ : ∃ (p : Fin 5000) (q : Fin 16), j = ix2 p q := ⟨j 0, j 1, eq_ix2 (n0 := 5000) (n1 := 16) j⟩
  show k2_pay1 (iblk2 V c 0 t) (iblk2 V c 1 t) (iblk2 V c 2 t) (ix2 p q) = G V c (((cfg2.win 3).blk t).view.emb (ix2 p q))
  rw [out_emb t p q]
  refine (payload_apply (iblk2 V c 0 t) (iblk2 V c 1 t) (iblk2 V c 2 t) p q).trans ?_
  refine logSoftmaxRows_row _ _ p (rowAt t p) q fun k => ?_
  refine (affineBlock_apply (iblk2 V c 0 t) (iblk2 V c 1 t) (iblk2 V c 2 t) p k).trans ?_
  rw [agg_block V c t p k, coeff_block V c t p, bias_block V c t k]
  rfl

/-- An index of the array is in point `t`'s block iff each coordinate is in the block's range on its axis. -/
theorem mem_blk (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v42).slice (win2_3.rect t)).set ↔ _
  rw [View.set_slice_whole, Rect.mem_set_unit]
  exact Iff.rfl

/-- The twenty blocks cover the array: row `r` is in block `r / 5000`. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e30, e31, e00, e01, e10, e11, e20, e21⟩ := index_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 16 ≤ (i 1).val ∧ (i 1).val < win2_3.index t (1 : Fin 2) * 16 + 16; omega

/-- The output array after the region: the whole-array result. -/
theorem final :
    (dat2 (F := Ideal) V c).arrAt 3 cfg2.N
      = Cert.Gcn.logSoftmaxRows (N := 100000) (C := 16)
          (Cert.Gcn.affineRows (N := 100000) (C := 16) (V c main_v40 : S100000x16.Idx → EReal)
            (V c main_v15 : S100000x1.Idx → EReal) (V c main_v41 : S1x16.Idx → EReal)) :=
  (dat2 (F := Ideal) V c).arrAt_eq_of_cover 3 (G V c) (fun t _ => flushed_eq V c t) (cover)

end

end Cert.Gcn.RegionLogSoftmax

end
-- ==== Proof.RefRun.lean ====
/-
  The reference program's run with its result: every weakly fair execution ends, nothing faulting, with the result
  array at the last stage of the program read as a function of the six launched arguments, and the arguments as
  launched.

  The program is a straight line of 117 host operations.  Its result is read in nine stretches — the edge words; the
  degree, its sign and its inverse square root; the guarded coefficient; the first projection and the edge
  coefficients; the first sum into the destination rows with its bias; the positive part; the same three for the
  second layer with the logarithm of the softmax last — each from the buffers the stretch before it left, so that a
  buffer several later operations read (the edge words, the coefficients, the hidden features) is named once and
  never expanded again.  A buffer of a called function is read and written through a change of its type's spelling,
  which is the identity: each is removed by name before two sides are compared, and the stages a stretch starts from
  are compared as opaque values.
-/
import proofs.«134963_j35364760715853_2_alg».proof.Proof.RefReadPatched
import Idealize.ShloMosaic.Lib.StableHlo.Run

set_option maxRecDepth 16384

noncomputable section

namespace Cert.Gcn.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a line of operations in two parts. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Stretch A1: operations 1–7 of the line -/

abbrev opsA1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

set_option maxHeartbeats 2000000 in
theorem A1_v3 (VA : Valuation τ sig (Elt Ideal)) (x1 : (⟨S2x3200000, .i32⟩ : BufTy).Contents (Elt Ideal)) (h_arg1 : VA (Proc.devRef .tc main_arg1) = x1) :
    after (opsA1 (F := Ideal)) VA (Proc.devRef .tc main_v3) = (val_main_v3 (F := Ideal) x1) := by
  after_results
  rw [h_arg1]
  unfold val_main_v3 val_main_v2 val_main_v1 val_main_v0
  rfl

set_option maxHeartbeats 2000000 in
theorem A1_v6 (VA : Valuation τ sig (Elt Ideal)) (x1 : (⟨S2x3200000, .i32⟩ : BufTy).Contents (Elt Ideal)) (h_arg1 : VA (Proc.devRef .tc main_arg1) = x1) :
    after (opsA1 (F := Ideal)) VA (Proc.devRef .tc main_v6) = (val_main_v6 (F := Ideal) x1) := by
  after_results
  rw [h_arg1]
  unfold val_main_v6 val_main_v5 val_main_v4 val_main_v0
  rfl

set_option maxHeartbeats 1000000 in
theorem A1_keep_arg0 (VA : Valuation τ sig (Elt Ideal)) : after (opsA1 (F := Ideal)) VA (Proc.devRef .tc main_arg0) = VA (Proc.devRef .tc main_arg0) := by after_results

set_option maxHeartbeats 1000000 in
theorem A1_keep_arg2 (VA : Valuation τ sig (Elt Ideal)) : after (opsA1 (F := Ideal)) VA (Proc.devRef .tc main_arg2) = VA (Proc.devRef .tc main_arg2) := by after_results

set_option maxHeartbeats 1000000 in
theorem A1_keep_arg3 (VA : Valuation τ sig (Elt Ideal)) : after (opsA1 (F := Ideal)) VA (Proc.devRef .tc main_arg3) = VA (Proc.devRef .tc main_arg3) := by after_results

set_option maxHeartbeats 1000000 in
theorem A1_keep_arg4 (VA : Valuation τ sig (Elt Ideal)) : after (opsA1 (F := Ideal)) VA (Proc.devRef .tc main_arg4) = VA (Proc.devRef .tc main_arg4) := by after_results

set_option maxHeartbeats 1000000 in
theorem A1_keep_arg5 (VA : Valuation τ sig (Elt Ideal)) : after (opsA1 (F := Ideal)) VA (Proc.devRef .tc main_arg5) = VA (Proc.devRef .tc main_arg5) := by after_results

/-! ## Stretch A2: operations 8–18 of the line -/

abbrev opsA2 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

set_option maxHeartbeats 2000000 in
theorem A2_v12 (VA : Valuation τ sig (Elt Ideal)) (x1 : (⟨S2x3200000, .i32⟩ : BufTy).Contents (Elt Ideal)) (h_v6 : VA (Proc.devRef .tc main_v6) = (val_main_v6 (F := Ideal) x1)) :
    after (opsA2 (F := Ideal)) VA (Proc.devRef .tc main_v12) = (val_main_v12 (F := Ideal) x1) := by
  after_results
  rw [h_v6]
  unfold val_main_v12 val_main_v11 val_main_cst_1 val_main_v10 val_main_v9 val_main_v8 val_main_cst_0 val_main_v7 val_main_cst
  generalize val_main_v6 (F := Ideal) x1 = s_v6
  rfl

set_option maxHeartbeats 2000000 in
theorem A2_v13 (VA : Valuation τ sig (Elt Ideal)) (x1 : (⟨S2x3200000, .i32⟩ : BufTy).Contents (Elt Ideal)) (h_v6 : VA (Proc.devRef .tc main_v6) = (val_main_v6 (F := Ideal) x1)) :
    after (opsA2 (F := Ideal)) VA (Proc.devRef .tc main_v13) = (val_main_v13 (F := Ideal) x1) := by
  after_results
  rw [h_v6]
  unfold val_main_v13 val_main_v10 val_main_v9 val_main_v8 val_main_cst_0 val_main_v7 val_main_cst
  generalize val_main_v6 (F := Ideal) x1 = s_v6
  rfl

set_option maxHeartbeats 2000000 in
theorem A2_cst_2 (VA : Valuation τ sig (Elt Ideal))   :
    after (opsA2 (F := Ideal)) VA (Proc.devRef .tc main_cst_2) = (val_main_cst_2 (F := Ideal)) := by
  after_results
  unfold val_main_cst_2
  rfl

set_option maxHeartbeats 1000000 in
theorem A2_keep_arg0 (VA : Valuation τ sig (Elt Ideal)) : after (opsA2 (F := Ideal)) VA (Proc.devRef .tc main_arg0) = VA (Proc.devRef .tc main_arg0) := by after_results

set_option maxHeartbeats 1000000 in
theorem A2_keep_arg2 (VA : Valuation τ sig (Elt Ideal)) : after (opsA2 (F := Ideal)) VA (Proc.devRef .tc main_arg2) = VA (Proc.devRef .tc main_arg2) := by after_results

set_option maxHeartbeats 1000000 in
theorem A2_keep_v3 (VA : Valuation τ sig (Elt Ideal)) : after (opsA2 (F := Ideal)) VA (Proc.devRef .tc main_v3) = VA (Proc.devRef .tc main_v3) := by after_results

set_option maxHeartbeats 1000000 in
theorem A2_keep_v6 (VA : Valuation τ sig (Elt Ideal)) : after (opsA2 (F := Ideal)) VA (Proc.devRef .tc main_v6) = VA (Proc.devRef .tc main_v6) := by after_results

set_option maxHeartbeats 1000000 in
theorem A2_keep_arg3 (VA : Valuation τ sig (Elt Ideal)) : after (opsA2 (F := Ideal)) VA (Proc.devRef .tc main_arg3) = VA (Proc.devRef .tc main_arg3) := by after_results

set_option maxHeartbeats 1000000 in
theorem A2_keep_arg4 (VA : Valuation τ sig (Elt Ideal)) : after (opsA2 (F := Ideal)) VA (Proc.devRef .tc main_arg4) = VA (Proc.devRef .tc main_arg4) := by after_results

set_option maxHeartbeats 1000000 in
theorem A2_keep_arg5 (VA : Valuation τ sig (Elt Ideal)) : after (opsA2 (F := Ideal)) VA (Proc.devRef .tc main_arg5) = VA (Proc.devRef .tc main_arg5) := by after_results

/-! ## Stretch A3: operations 19–21 of the line -/

abbrev opsA3 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

set_option maxHeartbeats 2000000 in
theorem A3_v14 (VA : Valuation τ sig (Elt Ideal)) (x1 : (⟨S2x3200000, .i32⟩ : BufTy).Contents (Elt Ideal)) (h_v12 : VA (Proc.devRef .tc main_v12) = (val_main_v12 (F := Ideal) x1)) (h_v13 : VA (Proc.devRef .tc main_v13) = (val_main_v13 (F := Ideal) x1)) (h_cst_2 : VA (Proc.devRef .tc main_cst_2) = (val_main_cst_2 (F := Ideal))) :
    after (opsA3 (F := Ideal)) VA (Proc.devRef .tc main_v14) = (val_main_v14 (F := Ideal) x1) := by
  have ofBuf_cst_2 : ∀ v, (TRef.of (sig := sig) (T := ⟨S_, .f32⟩) main_cst_2).ofBuf (Val := Elt Ideal) v = v := fun _ => rfl
  have toBuf_call0_v0 : ∀ v, (TRef.of (sig := sig) (T := ⟨S_, .f32⟩) main_call0_v0).toBuf (Val := Elt Ideal) v = v := fun _ => rfl
  have ofBuf_call0_v0 : ∀ v, (TRef.of (sig := sig) (T := ⟨S_, .f32⟩) main_call0_v0).ofBuf (Val := Elt Ideal) v = v := fun _ => rfl
  have toBuf_call0_v1 : ∀ v, (TRef.of (sig := sig) (T := ⟨S100000, .f32⟩) main_call0_v1).toBuf (Val := Elt Ideal) v = v := fun _ => rfl
  have ofBuf_v12 : ∀ v, (TRef.of (sig := sig) (T := ⟨S100000, .i1⟩) main_v12).ofBuf (Val := Elt Ideal) v = v := fun _ => rfl
  have ofBuf_v13 : ∀ v, (TRef.of (sig := sig) (T := ⟨S100000, .f32⟩) main_v13).ofBuf (Val := Elt Ideal) v = v := fun _ => rfl
  have ofBuf_call0_v1 : ∀ v, (TRef.of (sig := sig) (T := ⟨S100000, .f32⟩) main_call0_v1).ofBuf (Val := Elt Ideal) v = v := fun _ => rfl
  have toBuf_v14 : ∀ v, (TRef.of (sig := sig) (T := ⟨S100000, .f32⟩) main_v14).toBuf (Val := Elt Ideal) v = v := fun _ => rfl
  after_results
  rw [h_v12, h_v13, h_cst_2]
  simp only [ofBuf_cst_2, toBuf_call0_v0, ofBuf_call0_v0, toBuf_call0_v1, ofBuf_v12, ofBuf_v13, ofBuf_call0_v1, toBuf_v14]
  unfold val_main_v14 val_main_call0_v1 val_main_call0_v0
  generalize val_main_v12 (F := Ideal) x1 = s_v12
  generalize val_main_v13 (F := Ideal) x1 = s_v13
  generalize val_main_cst_2 (F := Ideal) = s_cst_2
  rfl

set_option maxHeartbeats 1000000 in
theorem A3_keep_arg0 (VA : Valuation τ sig (Elt Ideal)) : after (opsA3 (F := Ideal)) VA (Proc.devRef .tc main_arg0) = VA (Proc.devRef .tc main_arg0) := by after_results

set_option maxHeartbeats 1000000 in
theorem A3_keep_arg2 (VA : Valuation τ sig (Elt Ideal)) : after (opsA3 (F := Ideal)) VA (Proc.devRef .tc main_arg2) = VA (Proc.devRef .tc main_arg2) := by after_results

set_option maxHeartbeats 1000000 in
theorem A3_keep_v3 (VA : Valuation τ sig (Elt Ideal)) : after (opsA3 (F := Ideal)) VA (Proc.devRef .tc main_v3) = VA (Proc.devRef .tc main_v3) := by after_results

set_option maxHeartbeats 1000000 in
theorem A3_keep_v6 (VA : Valuation τ sig (Elt Ideal)) : after (opsA3 (F := Ideal)) VA (Proc.devRef .tc main_v6) = VA (Proc.devRef .tc main_v6) := by after_results

set_option maxHeartbeats 1000000 in
theorem A3_keep_arg3 (VA : Valuation τ sig (Elt Ideal)) : after (opsA3 (F := Ideal)) VA (Proc.devRef .tc main_arg3) = VA (Proc.devRef .tc main_arg3) := by after_results

set_option maxHeartbeats 1000000 in
theorem A3_keep_arg4 (VA : Valuation τ sig (Elt Ideal)) : after (opsA3 (F := Ideal)) VA (Proc.devRef .tc main_arg4) = VA (Proc.devRef .tc main_arg4) := by after_results

set_option maxHeartbeats 1000000 in
theorem A3_keep_arg5 (VA : Valuation τ sig (Elt Ideal)) : after (opsA3 (F := Ideal)) VA (Proc.devRef .tc main_arg5) = VA (Proc.devRef .tc main_arg5) := by after_results

/-! ## Stretch B1: operations 22–42 of the line -/

abbrev opsB1 : List (HloOp τ sig (Elt F)) :=
  [ binary main_arg0 main_arg2 main_v15 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    unary main_v30 main_v31 (broadcastInDim S3300000x1 ![0] bcast_S3300000_S3300000x1_0 : (⟨S3300000, .f32⟩ : BufTy).Contents (Elt F) → (⟨S3300000x1, .f32⟩ : BufTy).Contents (Elt F)) ]

set_option maxHeartbeats 2000000 in
theorem B1_v15 (VA : Valuation τ sig (Elt Ideal)) (x0 : (⟨S100000x512, .f32⟩ : BufTy).Contents (Elt Ideal)) (x2 : (⟨S512x64, .f32⟩ : BufTy).Contents (Elt Ideal)) (h_arg0 : VA (Proc.devRef .tc main_arg0) = x0) (h_arg2 : VA (Proc.devRef .tc main_arg2) = x2) :
    after (opsB1 (F := Ideal)) VA (Proc.devRef .tc main_v15) = (val_main_v15 (F := Ideal) x0 x2) := by
  after_results
  rw [h_arg0, h_arg2]
  unfold val_main_v15
  rfl

set_option maxHeartbeats 2000000 in
theorem B1_v31 (VA : Valuation τ sig (Elt Ideal)) (x1 : (⟨S2x3200000, .i32⟩ : BufTy).Contents (Elt Ideal)) (h_v14 : VA (Proc.devRef .tc main_v14) = (val_main_v14 (F := Ideal) x1)) (h_v3 : VA (Proc.devRef .tc main_v3) = (val_main_v3 (F := Ideal) x1)) (h_v6 : VA (Proc.devRef .tc main_v6) = (val_main_v6 (F := Ideal) x1)) :
    after (opsB1 (F := Ideal)) VA (Proc.devRef .tc main_v31) = (val_main_v31 (F := Ideal) x1) := by
  after_results
  rw [h_v14, h_v3, h_v6]
  unfold val_main_v31 val_main_v30 val_main_v29 val_main_v28 val_main_v27 val_main_v26 val_main_v25 val_main_c_5 val_main_v24 val_main_v23 val_main_c_4 val_main_v22 val_main_v21 val_main_v20 val_main_v19 val_main_v18 val_main_c_3 val_main_v17 val_main_v16 val_main_c
  generalize val_main_v14 (F := Ideal) x1 = s_v14
  generalize val_main_v3 (F := Ideal) x1 = s_v3
  generalize val_main_v6 (F := Ideal) x1 = s_v6
  rfl

set_option maxHeartbeats 1000000 in
theorem B1_keep_v3 (VA : Valuation τ sig (Elt Ideal)) : after (opsB1 (F := Ideal)) VA (Proc.devRef .tc main_v3) = VA (Proc.devRef .tc main_v3) := by after_results

set_option maxHeartbeats 1000000 in
theorem B1_keep_v6 (VA : Valuation τ sig (Elt Ideal)) : after (opsB1 (F := Ideal)) VA (Proc.devRef .tc main_v6) = VA (Proc.devRef .tc main_v6) := by after_results

set_option maxHeartbeats 1000000 in
theorem B1_keep_arg3 (VA : Valuation τ sig (Elt Ideal)) : after (opsB1 (F := Ideal)) VA (Proc.devRef .tc main_arg3) = VA (Proc.devRef .tc main_arg3) := by after_results

set_option maxHeartbeats 1000000 in
theorem B1_keep_arg4 (VA : Valuation τ sig (Elt Ideal)) : after (opsB1 (F := Ideal)) VA (Proc.devRef .tc main_arg4) = VA (Proc.devRef .tc main_arg4) := by after_results

set_option maxHeartbeats 1000000 in
theorem B1_keep_v14 (VA : Valuation τ sig (Elt Ideal)) : after (opsB1 (F := Ideal)) VA (Proc.devRef .tc main_v14) = VA (Proc.devRef .tc main_v14) := by after_results

set_option maxHeartbeats 1000000 in
theorem B1_keep_arg5 (VA : Valuation τ sig (Elt Ideal)) : after (opsB1 (F := Ideal)) VA (Proc.devRef .tc main_arg5) = VA (Proc.devRef .tc main_arg5) := by after_results

/-! ## Stretch B2: operations 43–60 of the line -/

abbrev opsB2 : List (HloOp τ sig (Elt F)) :=
  [ nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v15 main_v37 main_v38 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v38 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

set_option maxHeartbeats 2000000 in
theorem B2_v46 (VA : Valuation τ sig (Elt Ideal)) (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (h_v6 : VA (Proc.devRef .tc main_v6) = (val_main_v6 (F := Ideal) x1)) (h_v15 : VA (Proc.devRef .tc main_v15) = (val_main_v15 (F := Ideal) x0 x2)) (h_v3 : VA (Proc.devRef .tc main_v3) = (val_main_v3 (F := Ideal) x1)) (h_v31 : VA (Proc.devRef .tc main_v31) = (val_main_v31 (F := Ideal) x1)) (h_arg3 : VA (Proc.devRef .tc main_arg3) = x3) :
    after (opsB2 (F := Ideal)) VA (Proc.devRef .tc main_v46) = (val_main_v46 (F := Ideal) x0 x1 x2 x3) := by
  after_results
  rw [h_v6, h_v15, h_v3, h_v31, h_arg3]
  unfold val_main_v46 val_main_v45 val_main_v44 val_main_v43 val_main_v42 val_main_v41 val_main_cst_8 val_main_v40 val_main_v39 val_main_v38 val_main_v37 val_main_v36 val_main_v35 val_main_v34 val_main_c_7 val_main_v33 val_main_v32 val_main_c_6
  generalize val_main_v6 (F := Ideal) x1 = s_v6
  generalize val_main_v15 (F := Ideal) x0 x2 = s_v15
  generalize val_main_v3 (F := Ideal) x1 = s_v3
  generalize val_main_v31 (F := Ideal) x1 = s_v31
  rfl

set_option maxHeartbeats 1000000 in
theorem B2_keep_arg4 (VA : Valuation τ sig (Elt Ideal)) : after (opsB2 (F := Ideal)) VA (Proc.devRef .tc main_arg4) = VA (Proc.devRef .tc main_arg4) := by after_results

set_option maxHeartbeats 1000000 in
theorem B2_keep_v3 (VA : Valuation τ sig (Elt Ideal)) : after (opsB2 (F := Ideal)) VA (Proc.devRef .tc main_v3) = VA (Proc.devRef .tc main_v3) := by after_results

set_option maxHeartbeats 1000000 in
theorem B2_keep_v6 (VA : Valuation τ sig (Elt Ideal)) : after (opsB2 (F := Ideal)) VA (Proc.devRef .tc main_v6) = VA (Proc.devRef .tc main_v6) := by after_results

set_option maxHeartbeats 1000000 in
theorem B2_keep_v14 (VA : Valuation τ sig (Elt Ideal)) : after (opsB2 (F := Ideal)) VA (Proc.devRef .tc main_v14) = VA (Proc.devRef .tc main_v14) := by after_results

set_option maxHeartbeats 1000000 in
theorem B2_keep_arg5 (VA : Valuation τ sig (Elt Ideal)) : after (opsB2 (F := Ideal)) VA (Proc.devRef .tc main_arg5) = VA (Proc.devRef .tc main_arg5) := by after_results

/-! ## Stretch B3: operations 61–63 of the line -/

abbrev opsB3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

set_option maxHeartbeats 2000000 in
theorem B3_v47 (VA : Valuation τ sig (Elt Ideal)) (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (h_v46 : VA (Proc.devRef .tc main_v46) = (val_main_v46 (F := Ideal) x0 x1 x2 x3)) :
    after (opsB3 (F := Ideal)) VA (Proc.devRef .tc main_v47) = (val_main_v47 (F := Ideal) x0 x1 x2 x3) := by
  have toBuf_call1_cst : ∀ v, (TRef.of (sig := sig) (T := ⟨S_, .f32⟩) main_call1_cst).toBuf (Val := Elt Ideal) v = v := fun _ => rfl
  have ofBuf_call1_cst : ∀ v, (TRef.of (sig := sig) (T := ⟨S_, .f32⟩) main_call1_cst).ofBuf (Val := Elt Ideal) v = v := fun _ => rfl
  have toBuf_call1_v0 : ∀ v, (TRef.of (sig := sig) (T := ⟨S100000x64, .f32⟩) main_call1_v0).toBuf (Val := Elt Ideal) v = v := fun _ => rfl
  have ofBuf_v46 : ∀ v, (TRef.of (sig := sig) (T := ⟨S100000x64, .f32⟩) main_v46).ofBuf (Val := Elt Ideal) v = v := fun _ => rfl
  have ofBuf_call1_v0 : ∀ v, (TRef.of (sig := sig) (T := ⟨S100000x64, .f32⟩) main_call1_v0).ofBuf (Val := Elt Ideal) v = v := fun _ => rfl
  have toBuf_v47 : ∀ v, (TRef.of (sig := sig) (T := ⟨S100000x64, .f32⟩) main_v47).toBuf (Val := Elt Ideal) v = v := fun _ => rfl
  after_results
  rw [h_v46]
  simp only [toBuf_call1_cst, ofBuf_call1_cst, toBuf_call1_v0, ofBuf_v46, ofBuf_call1_v0, toBuf_v47]
  unfold val_main_v47 val_main_call1_v0 val_main_call1_cst
  generalize val_main_v46 (F := Ideal) x0 x1 x2 x3 = s_v46
  rfl

set_option maxHeartbeats 1000000 in
theorem B3_keep_arg4 (VA : Valuation τ sig (Elt Ideal)) : after (opsB3 (F := Ideal)) VA (Proc.devRef .tc main_arg4) = VA (Proc.devRef .tc main_arg4) := by after_results

set_option maxHeartbeats 1000000 in
theorem B3_keep_v3 (VA : Valuation τ sig (Elt Ideal)) : after (opsB3 (F := Ideal)) VA (Proc.devRef .tc main_v3) = VA (Proc.devRef .tc main_v3) := by after_results

set_option maxHeartbeats 1000000 in
theorem B3_keep_v6 (VA : Valuation τ sig (Elt Ideal)) : after (opsB3 (F := Ideal)) VA (Proc.devRef .tc main_v6) = VA (Proc.devRef .tc main_v6) := by after_results

set_option maxHeartbeats 1000000 in
theorem B3_keep_v14 (VA : Valuation τ sig (Elt Ideal)) : after (opsB3 (F := Ideal)) VA (Proc.devRef .tc main_v14) = VA (Proc.devRef .tc main_v14) := by after_results

set_option maxHeartbeats 1000000 in
theorem B3_keep_arg5 (VA : Valuation τ sig (Elt Ideal)) : after (opsB3 (F := Ideal)) VA (Proc.devRef .tc main_arg5) = VA (Proc.devRef .tc main_arg5) := by after_results

/-! ## Stretch C1: operations 64–84 of the line -/

abbrev opsC1 : List (HloOp τ sig (Elt F)) :=
  [ binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v6 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v62 main_v63 (mulf : (⟨S3300000, .f32⟩ : BufTy).Contents (Elt F) → (⟨S3300000, .f32⟩ : BufTy).Contents (Elt F) → (⟨S3300000, .f32⟩ : BufTy).Contents (Elt F)),
    unary main_v63 main_v64 (broadcastInDim S3300000x1 ![0] bcast_S3300000_S3300000x1_0 : (⟨S3300000, .f32⟩ : BufTy).Contents (Elt F) → (⟨S3300000x1, .f32⟩ : BufTy).Contents (Elt F)) ]

set_option maxHeartbeats 2000000 in
theorem C1_v48 (VA : Valuation τ sig (Elt Ideal)) (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (h_v47 : VA (Proc.devRef .tc main_v47) = (val_main_v47 (F := Ideal) x0 x1 x2 x3)) (h_arg4 : VA (Proc.devRef .tc main_arg4) = x4) :
    after (opsC1 (F := Ideal)) VA (Proc.devRef .tc main_v48) = (val_main_v48 (F := Ideal) x0 x1 x2 x3 x4) := by
  after_results
  rw [h_v47, h_arg4]
  unfold val_main_v48
  generalize val_main_v47 (F := Ideal) x0 x1 x2 x3 = s_v47
  rfl

set_option maxHeartbeats 2000000 in
theorem C1_v64 (VA : Valuation τ sig (Elt Ideal)) (x1 : (⟨S2x3200000, .i32⟩ : BufTy).Contents (Elt Ideal)) (h_v14 : VA (Proc.devRef .tc main_v14) = (val_main_v14 (F := Ideal) x1)) (h_v3 : VA (Proc.devRef .tc main_v3) = (val_main_v3 (F := Ideal) x1)) (h_v6 : VA (Proc.devRef .tc main_v6) = (val_main_v6 (F := Ideal) x1)) :
    after (opsC1 (F := Ideal)) VA (Proc.devRef .tc main_v64) = (val_main_v64 (F := Ideal) x1) := by
  after_results
  rw [h_v14, h_v3, h_v6]
  unfold val_main_v64 val_main_v63 val_main_v62 val_main_v61 val_main_v60 val_main_v59 val_main_v58 val_main_c_12 val_main_v57 val_main_v56 val_main_c_11 val_main_v55 val_main_v54 val_main_v53 val_main_v52 val_main_v51 val_main_c_10 val_main_v50 val_main_v49 val_main_c_9
  generalize val_main_v14 (F := Ideal) x1 = s_v14
  generalize val_main_v3 (F := Ideal) x1 = s_v3
  generalize val_main_v6 (F := Ideal) x1 = s_v6
  rfl

set_option maxHeartbeats 1000000 in
theorem C1_keep_v3 (VA : Valuation τ sig (Elt Ideal)) : after (opsC1 (F := Ideal)) VA (Proc.devRef .tc main_v3) = VA (Proc.devRef .tc main_v3) := by after_results

set_option maxHeartbeats 1000000 in
theorem C1_keep_v6 (VA : Valuation τ sig (Elt Ideal)) : after (opsC1 (F := Ideal)) VA (Proc.devRef .tc main_v6) = VA (Proc.devRef .tc main_v6) := by after_results

set_option maxHeartbeats 1000000 in
theorem C1_keep_arg5 (VA : Valuation τ sig (Elt Ideal)) : after (opsC1 (F := Ideal)) VA (Proc.devRef .tc main_arg5) = VA (Proc.devRef .tc main_arg5) := by after_results

/-! ## Stretch C2: operations 85–102 of the line -/

abbrev opsC2 : List (HloOp τ sig (Elt F)) :=
  [ nullary main_c_13 (constantI S_ 32 0#32),
    unary main_c_13 main_v65 (broadcastInDim S3300000 ![] bcast_S_S3300000 : (⟨S_, .i32⟩ : BufTy).Contents (Elt F) → (⟨S3300000, .i32⟩ : BufTy).Contents (Elt F)),
    binary main_v3 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v67 (broadcastInDim S3300000 ![] bcast_S_S3300000 : (⟨S_, .i32⟩ : BufTy).Contents (Elt F) → (⟨S3300000, .i32⟩ : BufTy).Contents (Elt F)),
    binary main_v3 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v3 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v48 main_v70 main_v71 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v64 main_v72 (broadcastInDim S3300000x16 ![0, 1] bcast_S3300000x1_S3300000x16_0_1 : (⟨S3300000x1, .f32⟩ : BufTy).Contents (Elt F) → (⟨S3300000x16, .f32⟩ : BufTy).Contents (Elt F)),
    binary main_v71 main_v72 main_v73 (mulf : (⟨S3300000x16, .f32⟩ : BufTy).Contents (Elt F) → (⟨S3300000x16, .f32⟩ : BufTy).Contents (Elt F) → (⟨S3300000x16, .f32⟩ : BufTy).Contents (Elt F)),
    nullary main_cst_15 (constant S_ .f32 0x00000000#32),
    unary main_cst_15 main_v74 (broadcastInDim S100000x16 ![] bcast_S_S100000x16 : (⟨S_, .f32⟩ : BufTy).Contents (Elt F) → (⟨S100000x16, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v77 (broadcastInDim S1x16 ![1] bcast_S16_S1x16_1 : (⟨S16, .f32⟩ : BufTy).Contents (Elt F) → (⟨S1x16, .f32⟩ : BufTy).Contents (Elt F)),
    unary main_v77 main_v78 (broadcastInDim S100000x16 ![0, 1] bcast_S1x16_S100000x16_0_1 : (⟨S1x16, .f32⟩ : BufTy).Contents (Elt F) → (⟨S100000x16, .f32⟩ : BufTy).Contents (Elt F)),
    binary main_v76 main_v78 main_v79 (addf : (⟨S100000x16, .f32⟩ : BufTy).Contents (Elt F) → (⟨S100000x16, .f32⟩ : BufTy).Contents (Elt F) → (⟨S100000x16, .f32⟩ : BufTy).Contents (Elt F)) ]

set_option maxHeartbeats 2000000 in
theorem C2_v79 (VA : Valuation τ sig (Elt Ideal)) (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h_v6 : VA (Proc.devRef .tc main_v6) = (val_main_v6 (F := Ideal) x1)) (h_v48 : VA (Proc.devRef .tc main_v48) = (val_main_v48 (F := Ideal) x0 x1 x2 x3 x4)) (h_v3 : VA (Proc.devRef .tc main_v3) = (val_main_v3 (F := Ideal) x1)) (h_v64 : VA (Proc.devRef .tc main_v64) = (val_main_v64 (F := Ideal) x1)) (h_arg5 : VA (Proc.devRef .tc main_arg5) = x5) :
    after (opsC2 (F := Ideal)) VA (Proc.devRef .tc main_v79) = (val_main_v79 (F := Ideal) x0 x1 x2 x3 x4 x5) := by
  after_results
  rw [h_v6, h_v48, h_v3, h_v64, h_arg5]
  unfold val_main_v79 val_main_v78 val_main_v77 val_main_v76 val_main_v75 val_main_v74 val_main_cst_15 val_main_v73 val_main_v72 val_main_v71 val_main_v70 val_main_v69 val_main_v68 val_main_v67 val_main_c_14 val_main_v66 val_main_v65 val_main_c_13
  generalize val_main_v6 (F := Ideal) x1 = s_v6
  generalize val_main_v48 (F := Ideal) x0 x1 x2 x3 x4 = s_v48
  generalize val_main_v3 (F := Ideal) x1 = s_v3
  generalize val_main_v64 (F := Ideal) x1 = s_v64
  rfl

/-! ## Stretch D: operations 103–117 of the line -/

abbrev opsD : List (HloOp τ sig (Elt F)) :=
  [ TRef.nullary (TRef.of (T := ⟨S_, .f32⟩) main_call2_cst) (constant S_ .f32 0xFF800000#32),
    TRef.binary (TRef.of (T := ⟨S100000x16, .f32⟩) main_v79) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v79) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v80) subf ]

set_option maxHeartbeats 2000000 in
theorem D_v80 (VA : Valuation τ sig (Elt Ideal)) (x0 : (⟨S100000x512, .f32⟩ : BufTy).Contents (Elt Ideal)) (x1 : (⟨S2x3200000, .i32⟩ : BufTy).Contents (Elt Ideal)) (x2 : (⟨S512x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h_v79 : VA (Proc.devRef .tc main_v79) = (val_main_v79 (F := Ideal) x0 x1 x2 x3 x4 x5)) :
    after (opsD (F := Ideal)) VA (Proc.devRef .tc main_v80) = (val_main_v80 (F := Ideal) x0 x1 x2 x3 x4 x5) := by
  have toBuf_call2_cst : ∀ v, (TRef.of (sig := sig) (T := ⟨S_, .f32⟩) main_call2_cst).toBuf (Val := Elt Ideal) v = v := fun _ => rfl
  have ofBuf_v79 : ∀ v, (TRef.of (sig := sig) (T := ⟨S100000x16, .f32⟩) main_v79).ofBuf (Val := Elt Ideal) v = v := fun _ => rfl
  have ofBuf_call2_cst : ∀ v, (TRef.of (sig := sig) (T := ⟨S_, .f32⟩) main_call2_cst).ofBuf (Val := Elt Ideal) v = v := fun _ => rfl
  have toBuf_call2_v0 : ∀ v, (TRef.of (sig := sig) (T := ⟨S100000, .f32⟩) main_call2_v0).toBuf (Val := Elt Ideal) v = v := fun _ => rfl
  have toBuf_call2_cst_0 : ∀ v, (TRef.of (sig := sig) (T := ⟨S_, .f32⟩) main_call2_cst_0).toBuf (Val := Elt Ideal) v = v := fun _ => rfl
  have ofBuf_call2_cst_0 : ∀ v, (TRef.of (sig := sig) (T := ⟨S_, .f32⟩) main_call2_cst_0).ofBuf (Val := Elt Ideal) v = v := fun _ => rfl
  have toBuf_call2_v1 : ∀ v, (TRef.of (sig := sig) (T := ⟨S100000, .f32⟩) main_call2_v1).toBuf (Val := Elt Ideal) v = v := fun _ => rfl
  have ofBuf_call2_v1 : ∀ v, (TRef.of (sig := sig) (T := ⟨S100000, .f32⟩) main_call2_v1).ofBuf (Val := Elt Ideal) v = v := fun _ => rfl
  have ofBuf_call2_v0 : ∀ v, (TRef.of (sig := sig) (T := ⟨S100000, .f32⟩) main_call2_v0).ofBuf (Val := Elt Ideal) v = v := fun _ => rfl
  have toBuf_call2_v2 : ∀ v, (TRef.of (sig := sig) (T := ⟨S100000, .f32⟩) main_call2_v2).toBuf (Val := Elt Ideal) v = v := fun _ => rfl
  have ofBuf_call2_v2 : ∀ v, (TRef.of (sig := sig) (T := ⟨S100000, .f32⟩) main_call2_v2).ofBuf (Val := Elt Ideal) v = v := fun _ => rfl
  have toBuf_call2_v3 : ∀ v, (TRef.of (sig := sig) (T := ⟨S100000x1, .f32⟩) main_call2_v3).toBuf (Val := Elt Ideal) v = v := fun _ => rfl
  have ofBuf_call2_v3 : ∀ v, (TRef.of (sig := sig) (T := ⟨S100000x1, .f32⟩) main_call2_v3).ofBuf (Val := Elt Ideal) v = v := fun _ => rfl
  have toBuf_call2_v4 : ∀ v, (TRef.of (sig := sig) (T := ⟨S100000x16, .f32⟩) main_call2_v4).toBuf (Val := Elt Ideal) v = v := fun _ => rfl
  have ofBuf_call2_v4 : ∀ v, (TRef.of (sig := sig) (T := ⟨S100000x16, .f32⟩) main_call2_v4).ofBuf (Val := Elt Ideal) v = v := fun _ => rfl
  have toBuf_call2_v5 : ∀ v, (TRef.of (sig := sig) (T := ⟨S100000x16, .f32⟩) main_call2_v5).toBuf (Val := Elt Ideal) v = v := fun _ => rfl
  have ofBuf_call2_v5 : ∀ v, (TRef.of (sig := sig) (T := ⟨S100000x16, .f32⟩) main_call2_v5).ofBuf (Val := Elt Ideal) v = v := fun _ => rfl
  have toBuf_call2_v6 : ∀ v, (TRef.of (sig := sig) (T := ⟨S100000x16, .f32⟩) main_call2_v6).toBuf (Val := Elt Ideal) v = v := fun _ => rfl
  have toBuf_call2_cst_1 : ∀ v, (TRef.of (sig := sig) (T := ⟨S_, .f32⟩) main_call2_cst_1).toBuf (Val := Elt Ideal) v = v := fun _ => rfl
  have ofBuf_call2_v6 : ∀ v, (TRef.of (sig := sig) (T := ⟨S100000x16, .f32⟩) main_call2_v6).ofBuf (Val := Elt Ideal) v = v := fun _ => rfl
  have ofBuf_call2_cst_1 : ∀ v, (TRef.of (sig := sig) (T := ⟨S_, .f32⟩) main_call2_cst_1).ofBuf (Val := Elt Ideal) v = v := fun _ => rfl
  have toBuf_call2_v7 : ∀ v, (TRef.of (sig := sig) (T := ⟨S100000, .f32⟩) main_call2_v7).toBuf (Val := Elt Ideal) v = v := fun _ => rfl
  have ofBuf_call2_v7 : ∀ v, (TRef.of (sig := sig) (T := ⟨S100000, .f32⟩) main_call2_v7).ofBuf (Val := Elt Ideal) v = v := fun _ => rfl
  have toBuf_call2_v8 : ∀ v, (TRef.of (sig := sig) (T := ⟨S100000x1, .f32⟩) main_call2_v8).toBuf (Val := Elt Ideal) v = v := fun _ => rfl
  have ofBuf_call2_v8 : ∀ v, (TRef.of (sig := sig) (T := ⟨S100000x1, .f32⟩) main_call2_v8).ofBuf (Val := Elt Ideal) v = v := fun _ => rfl
  have toBuf_call2_v9 : ∀ v, (TRef.of (sig := sig) (T := ⟨S100000x1, .f32⟩) main_call2_v9).toBuf (Val := Elt Ideal) v = v := fun _ => rfl
  have ofBuf_call2_v9 : ∀ v, (TRef.of (sig := sig) (T := ⟨S100000x1, .f32⟩) main_call2_v9).ofBuf (Val := Elt Ideal) v = v := fun _ => rfl
  have toBuf_call2_v10 : ∀ v, (TRef.of (sig := sig) (T := ⟨S100000x16, .f32⟩) main_call2_v10).toBuf (Val := Elt Ideal) v = v := fun _ => rfl
  have ofBuf_call2_v10 : ∀ v, (TRef.of (sig := sig) (T := ⟨S100000x16, .f32⟩) main_call2_v10).ofBuf (Val := Elt Ideal) v = v := fun _ => rfl
  have toBuf_v80 : ∀ v, (TRef.of (sig := sig) (T := ⟨S100000x16, .f32⟩) main_v80).toBuf (Val := Elt Ideal) v = v := fun _ => rfl
  after_results
  rw [h_v79]
  simp only [toBuf_call2_cst, ofBuf_v79, ofBuf_call2_cst, toBuf_call2_v0, toBuf_call2_cst_0, ofBuf_call2_cst_0, toBuf_call2_v1, ofBuf_call2_v1, ofBuf_call2_v0, toBuf_call2_v2, ofBuf_call2_v2, toBuf_call2_v3, ofBuf_call2_v3, toBuf_call2_v4, ofBuf_call2_v4, toBuf_call2_v5, ofBuf_call2_v5, toBuf_call2_v6, toBuf_call2_cst_1, ofBuf_call2_v6, ofBuf_call2_cst_1, toBuf_call2_v7, ofBuf_call2_v7, toBuf_call2_v8, ofBuf_call2_v8, toBuf_call2_v9, ofBuf_call2_v9, toBuf_call2_v10, ofBuf_call2_v10, toBuf_v80]
  unfold val_main_v80 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst
  generalize val_main_v79 (F := Ideal) x0 x1 x2 x3 x4 x5 = s_v79
  rfl

/-- The program's line is the nine stretches in order. -/
theorem ops_split : (ops (F := F)) = opsA1 ++ (opsA2 ++ (opsA3 ++ (opsB1 ++ (opsB2 ++ (opsB3 ++ (opsC1 ++ (opsC2 ++ (opsD)))))))) := rfl

variable (m : (ℓ : Loc nD τ sig) → Buf (Elt Ideal) ℓ) (c : Dev nD)

set_option maxHeartbeats 2000000 in
/-- The result buffer after the whole line is the last stage of the program, of the launched arguments. -/
theorem result_eq :
    after (ops (F := Ideal)) (launchContents m c) (Proc.devRef .tc main_v80)
      = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split (F := Ideal), after_append, after_append, after_append, after_append, after_append, after_append, after_append, after_append]
  have f_arg0 : launchContents m c (Proc.devRef .tc main_arg0) = (m ((c.tc : Thread nD τ).loc main_arg0)) := rfl
  have f_arg1 : launchContents m c (Proc.devRef .tc main_arg1) = (m ((c.tc : Thread nD τ).loc main_arg1)) := rfl
  have f_arg2 : launchContents m c (Proc.devRef .tc main_arg2) = (m ((c.tc : Thread nD τ).loc main_arg2)) := rfl
  have f_arg3 : launchContents m c (Proc.devRef .tc main_arg3) = (m ((c.tc : Thread nD τ).loc main_arg3)) := rfl
  have f_arg4 : launchContents m c (Proc.devRef .tc main_arg4) = (m ((c.tc : Thread nD τ).loc main_arg4)) := rfl
  have f_arg5 : launchContents m c (Proc.devRef .tc main_arg5) = (m ((c.tc : Thread nD τ).loc main_arg5)) := rfl
  generalize launchContents m c = V0 at f_arg0 f_arg1 f_arg2 f_arg3 f_arg4 f_arg5 ⊢
  have f0_v3 := A1_v3 V0 (m ((c.tc : Thread nD τ).loc main_arg1)) f_arg1
  have f0_v6 := A1_v6 V0 (m ((c.tc : Thread nD τ).loc main_arg1)) f_arg1
  have f0_arg0 := (A1_keep_arg0 V0).trans f_arg0
  have f0_arg2 := (A1_keep_arg2 V0).trans f_arg2
  have f0_arg3 := (A1_keep_arg3 V0).trans f_arg3
  have f0_arg4 := (A1_keep_arg4 V0).trans f_arg4
  have f0_arg5 := (A1_keep_arg5 V0).trans f_arg5
  generalize after opsA1 V0 = V1 at f0_v3 f0_v6 f0_arg0 f0_arg2 f0_arg3 f0_arg4 f0_arg5 ⊢
  have f1_v12 := A2_v12 V1 (m ((c.tc : Thread nD τ).loc main_arg1)) f0_v6
  have f1_v13 := A2_v13 V1 (m ((c.tc : Thread nD τ).loc main_arg1)) f0_v6
  have f1_cst_2 := A2_cst_2 V1
  have f1_arg0 := (A2_keep_arg0 V1).trans f0_arg0
  have f1_arg2 := (A2_keep_arg2 V1).trans f0_arg2
  have f1_v3 := (A2_keep_v3 V1).trans f0_v3
  have f1_v6 := (A2_keep_v6 V1).trans f0_v6
  have f1_arg3 := (A2_keep_arg3 V1).trans f0_arg3
  have f1_arg4 := (A2_keep_arg4 V1).trans f0_arg4
  have f1_arg5 := (A2_keep_arg5 V1).trans f0_arg5
  generalize after opsA2 V1 = V2 at f1_v12 f1_v13 f1_cst_2 f1_arg0 f1_arg2 f1_v3 f1_v6 f1_arg3 f1_arg4 f1_arg5 ⊢
  have f2_v14 := A3_v14 V2 (m ((c.tc : Thread nD τ).loc main_arg1)) f1_v12 f1_v13 f1_cst_2
  have f2_arg0 := (A3_keep_arg0 V2).trans f1_arg0
  have f2_arg2 := (A3_keep_arg2 V2).trans f1_arg2
  have f2_v3 := (A3_keep_v3 V2).trans f1_v3
  have f2_v6 := (A3_keep_v6 V2).trans f1_v6
  have f2_arg3 := (A3_keep_arg3 V2).trans f1_arg3
  have f2_arg4 := (A3_keep_arg4 V2).trans f1_arg4
  have f2_arg5 := (A3_keep_arg5 V2).trans f1_arg5
  generalize after opsA3 V2 = V3 at f2_v14 f2_arg0 f2_arg2 f2_v3 f2_v6 f2_arg3 f2_arg4 f2_arg5 ⊢
  have f3_v15 := B1_v15 V3 (m ((c.tc : Thread nD τ).loc main_arg0)) (m ((c.tc : Thread nD τ).loc main_arg2)) f2_arg0 f2_arg2
  have f3_v31 := B1_v31 V3 (m ((c.tc : Thread nD τ).loc main_arg1)) f2_v14 f2_v3 f2_v6
  have f3_v3 := (B1_keep_v3 V3).trans f2_v3
  have f3_v6 := (B1_keep_v6 V3).trans f2_v6
  have f3_arg3 := (B1_keep_arg3 V3).trans f2_arg3
  have f3_arg4 := (B1_keep_arg4 V3).trans f2_arg4
  have f3_v14 := (B1_keep_v14 V3).trans f2_v14
  have f3_arg5 := (B1_keep_arg5 V3).trans f2_arg5
  generalize after opsB1 V3 = V4 at f3_v15 f3_v31 f3_v3 f3_v6 f3_arg3 f3_arg4 f3_v14 f3_arg5 ⊢
  have f4_v46 := B2_v46 V4 (m ((c.tc : Thread nD τ).loc main_arg0)) (m ((c.tc : Thread nD τ).loc main_arg1)) (m ((c.tc : Thread nD τ).loc main_arg2)) (m ((c.tc : Thread nD τ).loc main_arg3)) f3_v6 f3_v15 f3_v3 f3_v31 f3_arg3
  have f4_arg4 := (B2_keep_arg4 V4).trans f3_arg4
  have f4_v3 := (B2_keep_v3 V4).trans f3_v3
  have f4_v6 := (B2_keep_v6 V4).trans f3_v6
  have f4_v14 := (B2_keep_v14 V4).trans f3_v14
  have f4_arg5 := (B2_keep_arg5 V4).trans f3_arg5
  generalize after opsB2 V4 = V5 at f4_v46 f4_arg4 f4_v3 f4_v6 f4_v14 f4_arg5 ⊢
  have f5_v47 := B3_v47 V5 (m ((c.tc : Thread nD τ).loc main_arg0)) (m ((c.tc : Thread nD τ).loc main_arg1)) (m ((c.tc : Thread nD τ).loc main_arg2)) (m ((c.tc : Thread nD τ).loc main_arg3)) f4_v46
  have f5_arg4 := (B3_keep_arg4 V5).trans f4_arg4
  have f5_v3 := (B3_keep_v3 V5).trans f4_v3
  have f5_v6 := (B3_keep_v6 V5).trans f4_v6
  have f5_v14 := (B3_keep_v14 V5).trans f4_v14
  have f5_arg5 := (B3_keep_arg5 V5).trans f4_arg5
  generalize after opsB3 V5 = V6 at f5_v47 f5_arg4 f5_v3 f5_v6 f5_v14 f5_arg5 ⊢
  have f6_v48 := C1_v48 V6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) f5_v47 f5_arg4
  have f6_v64 := C1_v64 V6 (m ((c.tc : Thread nD τ).loc main_arg1)) f5_v14 f5_v3 f5_v6
  have f6_v3 := (C1_keep_v3 V6).trans f5_v3
  have f6_v6 := (C1_keep_v6 V6).trans f5_v6
  have f6_arg5 := (C1_keep_arg5 V6).trans f5_arg5
  generalize after opsC1 V6 = V7 at f6_v48 f6_v64 f6_v3 f6_v6 f6_arg5 ⊢
  have f7_v79 := C2_v79 V7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) f6_v6 f6_v48 f6_v3 f6_v64 f6_arg5
  generalize after opsC2 V7 = V8 at f7_v79 ⊢
  have f8_v80 := D_v80 V8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) f7_v79
  exact f8_v80

/-- No operation of the line writes an argument's buffer. -/
macro "no_operation_writes" : tactic => `(tactic| (
  refine List.forall_iff_forall_mem.mp ?_
  simp only [ops, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 4000000 in
theorem kept0 : after (ops (F := Ideal)) (launchContents m c) (Proc.devRef .tc main_arg0) = (m ((c.tc : Thread nD τ).loc main_arg0)) :=
  StableHlo.after_of_forall_not_mem (b := Proc.devRef .tc main_arg0) _ _ (by no_operation_writes)
set_option maxHeartbeats 4000000 in
theorem kept1 : after (ops (F := Ideal)) (launchContents m c) (Proc.devRef .tc main_arg1) = (m ((c.tc : Thread nD τ).loc main_arg1)) :=
  StableHlo.after_of_forall_not_mem (b := Proc.devRef .tc main_arg1) _ _ (by no_operation_writes)
set_option maxHeartbeats 4000000 in
theorem kept2 : after (ops (F := Ideal)) (launchContents m c) (Proc.devRef .tc main_arg2) = (m ((c.tc : Thread nD τ).loc main_arg2)) :=
  StableHlo.after_of_forall_not_mem (b := Proc.devRef .tc main_arg2) _ _ (by no_operation_writes)
set_option maxHeartbeats 4000000 in
theorem kept3 : after (ops (F := Ideal)) (launchContents m c) (Proc.devRef .tc main_arg3) = (m ((c.tc : Thread nD τ).loc main_arg3)) :=
  StableHlo.after_of_forall_not_mem (b := Proc.devRef .tc main_arg3) _ _ (by no_operation_writes)
set_option maxHeartbeats 4000000 in
theorem kept4 : after (ops (F := Ideal)) (launchContents m c) (Proc.devRef .tc main_arg4) = (m ((c.tc : Thread nD τ).loc main_arg4)) :=
  StableHlo.after_of_forall_not_mem (b := Proc.devRef .tc main_arg4) _ _ (by no_operation_writes)
set_option maxHeartbeats 4000000 in
theorem kept5 : after (ops (F := Ideal)) (launchContents m c) (Proc.devRef .tc main_arg5) = (m ((c.tc : Thread nD τ).loc main_arg5)) :=
  StableHlo.after_of_forall_not_mem (b := Proc.devRef .tc main_arg5) _ _ (by no_operation_writes)

/-- The run: the result at the program's last stage of the arguments, the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans (result_eq m c),
      (h c main_arg0).trans (kept0 m c), (h c main_arg1).trans (kept1 m c), (h c main_arg2).trans (kept2 m c),
      (h c main_arg3).trans (kept3 m c), (h c main_arg4).trans (kept4 m c), (h c main_arg5).trans (kept5 m c)⟩)
    (run_seq scopedRefs_eq scopedSems_eq defs main (fun _ => ops) main_eq (fun _ => ops_sub) m ρ)

end Cert.Gcn.RefRun

end
-- ==== Proof.LibVectorGather.lean ====
/-
  The gather of a vector's entries, read by coordinates.

  `x[rows]` on a vector `x : [N]`, with the row numbers given as a column `[E, 1]` of signed words: entry `e` of the
  result is `x` at the word of row `e`, read signed and clamped into `[0, N - 1]`.
-/
import proofs.«134963_j35364760715853_2_alg».proof.Proof.LibRowScatterGather

namespace Idealize.ShloMosaic.ValueIdx

open Idealize.ShloMosaic

variable {N E w : ℕ}

/-- The dimension numbers of `x[rows]` for `x : [N]`, `rows : [E, 1]`, result `[E]`. -/
abbrev takeVec (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[rows]` on a vector at `e` is `x` at row `e`'s word, read signed and clamped into `[0, N - 1]`: the one operand
    axis is collapsed, so the entry read is the clamped start index alone. -/
theorem takeVec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeVec N E wf) x idx (ix1 e) = x (ix1 (clampRow N hN (idx (ix2 e 0)))) := by
  unfold Host.gather
  congr 1
  funext a
  refine Fin.ext ?_
  match a with
  | ⟨0, _⟩ =>
    show (takeVec N E wf).start (ix1 e) idx 0 + (takeVec N E wf).batchCoord (ix1 e) 0 + (takeVec N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (takeVec N E wf).startIndexMap from List.mem_singleton.mpr rfl)]
    have hsi : (takeVec N E wf).siIdx (ix1 e) ⟨List.idxOf (0 : Fin 1) (takeVec N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Idealize.ShloMosaic.ValueIdx
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefValue.lean ====
/-
  The reference program's result as one function of its six arguments, index by index, over the extended reals.

  The reference is a two-layer normalised graph convolution followed by the logarithm of the softmax along each row.
  Each layer multiplies the node features by a weight matrix, reads for every edge the source row of that product,
  multiplies it by the product of the two endpoint coefficients, sums the edge messages into their destination rows
  starting from zero, and adds a bias.  Between the layers the positive part is taken.  The stages are read one at a
  time at explicit coordinates and then matched with the plain functions of `Spec`.
-/
import proofs.«134963_j35364760715853_2_alg».proof.Proof.RefReadPatched
import proofs.«134963_j35364760715853_2_alg».proof.Proof.Spec
import proofs.«134963_j35364760715853_2_alg».proof.Proof.LibRowScatterGather
import proofs.«134963_j35364760715853_2_alg».proof.Proof.LibVectorGather
import proofs.«134963_j35364760715853_2_alg».proof.Proof.LibHostMaxForms
import Idealize.ShloMosaic.PureOps.Ideal.Laws
import Idealize.ShloMosaic.Lib.ValueIdx

noncomputable section

namespace Cert.Gcn.RefValue

open Cert.ReferenceIdeal Cert.ReferenceIdeal.ReadP Idealize.ShloMosaic Idealize.ShloMosaic.ValueIdx

theorem hN : 0 < 100000 := by decide

variable (x0 : (⟨S100000x512, .f32⟩ : BufTy).Contents (Elt Ideal)) (x1 : (⟨S2x3200000, .i32⟩ : BufTy).Contents (Elt Ideal))
  (x2 : (⟨S512x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-! ## The edge words

The program wraps the source words three more times and the destination words once more, and broadcasts the raw
destination words twice more; each repetition is the same term. -/

theorem words_v37 : val_main_v37 (F := Ideal) x1 = val_main_v21 (F := Ideal) x1 := rfl
theorem words_v54 : val_main_v54 (F := Ideal) x1 = val_main_v21 (F := Ideal) x1 := rfl
theorem words_v70 : val_main_v70 (F := Ideal) x1 = val_main_v21 (F := Ideal) x1 := rfl
theorem words_v61 : val_main_v61 (F := Ideal) x1 = val_main_v28 (F := Ideal) x1 := rfl
theorem words_v42 : val_main_v42 (F := Ideal) x1 = val_main_v9 (F := Ideal) x1 := rfl
theorem words_v75 : val_main_v75 (F := Ideal) x1 = val_main_v9 (F := Ideal) x1 := rfl

/-! ## The gathers and the scatter-adds of this program, at coordinates -/

/-- An entry of the vector gather is the vector at the edge's word, clamped. -/
theorem gatherVec_apply (D : S100000.Idx → EReal) (w : S3300000x1.Idx → BitVec 32) (e : Fin 3300000) :
    Host.gather gather_S100000_S3300000x1_S3300000_n_0_n_n_0_1_1 D w (ix1 e) = D (ix1 (rowOf hN w e)) :=
  takeVec_apply hN _ D w e

/-- An entry of the 64-column row gather is the matrix at (the edge's word clamped, the column). -/
theorem gatherRows64_apply (h : S100000x64.Idx → EReal) (w : S3300000x1.Idx → BitVec 32) (e : Fin 3300000) (f : Fin 64) :
    Host.gather gather_S100000x64_S3300000x1_S3300000x64_1_0_n_n_0_1_164 h w (ix2 e f) = h (ix2 (rowOf hN w e) f) :=
  takeRows_apply hN _ h w e f

/-- An entry of the 16-column row gather is the matrix at (the edge's word clamped, the column). -/
theorem gatherRows16_apply (h : S100000x16.Idx → EReal) (w : S3300000x1.Idx → BitVec 32) (e : Fin 3300000) (f : Fin 16) :
    Host.gather gather_S100000x16_S3300000x1_S3300000x16_1_0_n_n_0_1_116 h w (ix2 e f) = h (ix2 (rowOf hN w e) f) :=
  takeRows_apply hN _ h w e f

/-- The 64-column scatter-add at (n, f): the start value plus column f of the updates whose word reads as n. -/
theorem scatter64_apply (z : S100000x64.Idx → EReal) (w : S3300000x1.Idx → BitVec 32) (u : S3300000x64.Idx → EReal)
    (n : Fin 100000) (f : Fin 64) :
    Host.scatterAdd (F := Ideal) (φ := .f32) scatter_S100000x64_S3300000x1_S3300000x64_1_0_0_1 z w u (ix2 n f)
      = z (ix2 n f) + ∑ e ∈ lands w n, u (ix2 e f) :=
  host_scatterRows2_apply _ _ rfl z w u n f

/-- The 16-column scatter-add at (n, f): the start value plus column f of the updates whose word reads as n. -/
theorem scatter16_apply (z : S100000x16.Idx → EReal) (w : S3300000x1.Idx → BitVec 32) (u : S3300000x16.Idx → EReal)
    (n : Fin 100000) (f : Fin 16) :
    Host.scatterAdd (F := Ideal) (φ := .f32) scatter_S100000x16_S3300000x1_S3300000x16_1_0_0_1 z w u (ix2 n f)
      = z (ix2 n f) + ∑ e ∈ lands w n, u (ix2 e f) :=
  host_scatterRows2_apply _ _ rfl z w u n f

/-! ## The edge coefficient -/

/-- The first layer's edge coefficient: the node coefficient at the source row times the one at the destination row. -/
theorem coeff1_apply (e : Fin 3300000) :
    val_main_v30 (F := Ideal) x1 (ix1 e)
      = val_main_v14 (F := Ideal) x1 (ix1 (rowOf hN (val_main_v21 (F := Ideal) x1) e))
        * val_main_v14 (F := Ideal) x1 (ix1 (rowOf hN (val_main_v28 (F := Ideal) x1) e)) := by
  rw [val_main_v30_apply, Ideal.mulf_def]
  unfold val_main_v22 val_main_v29
  rw [gatherVec_apply, gatherVec_apply]

/-- The second layer computes the same edge coefficient again. -/
theorem coeff2_apply (e : Fin 3300000) :
    val_main_v63 (F := Ideal) x1 (ix1 e)
      = val_main_v14 (F := Ideal) x1 (ix1 (rowOf hN (val_main_v21 (F := Ideal) x1) e))
        * val_main_v14 (F := Ideal) x1 (ix1 (rowOf hN (val_main_v28 (F := Ideal) x1) e)) := by
  rw [val_main_v63_apply, Ideal.mulf_def]
  unfold val_main_v55 val_main_v62
  rw [gatherVec_apply, gatherVec_apply, words_v54, words_v61]

/-! ## The first layer -/

/-- The first matrix product. -/
theorem project1_apply (n : Fin 100000) (f : Fin 64) :
    val_main_v15 (F := Ideal) x0 x2 (ix2 n f) = product x0 x2 (ix2 n f) := by
  rw [val_main_v15_apply]
  show _ = ∑ k : Fin 512, x0 (ix2 n k) * x2 (ix2 k f)
  refine Finset.sum_congr rfl fun k _ => ?_
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- An edge's message of the first layer: the source row of the product times the edge coefficient. -/
theorem message1_apply (e : Fin 3300000) (f : Fin 64) :
    val_main_v40 (F := Ideal) x0 x1 x2 (ix2 e f)
      = product x0 x2 (ix2 (rowOf hN (val_main_v21 (F := Ideal) x1) e) f)
        * (val_main_v14 (F := Ideal) x1 (ix1 (rowOf hN (val_main_v21 (F := Ideal) x1) e))
          * val_main_v14 (F := Ideal) x1 (ix1 (rowOf hN (val_main_v28 (F := Ideal) x1) e))) := by
  rw [val_main_v40_apply, Ideal.mulf_def, val_main_v39_apply, val_main_v31_apply]
  have hi : idx_main_v31 (idx_main_v39 (ix2 e f)) = ix1 e :=
    funext fun a => Fin.ext (by match a with | ⟨0, _⟩ => rfl)
  rw [hi, coeff1_apply]
  unfold val_main_v38
  rw [gatherRows64_apply, words_v37, project1_apply]

/-- The first layer's sum of the messages into their destination rows, from zero. -/
theorem aggregate1_apply (n : Fin 100000) (f : Fin 64) :
    val_main_v43 (F := Ideal) x0 x1 x2 (ix2 n f)
      = 0 + ∑ e ∈ lands (val_main_v9 (F := Ideal) x1) n, val_main_v40 (F := Ideal) x0 x1 x2 (ix2 e f) := by
  unfold val_main_v43
  rw [scatter64_apply, words_v42, val_main_v41_apply, val_main_cst_8_apply, Ideal.ofBits_def, Ideal.ofBits_zero_f32]

/-- The first layer's bias, broadcast over the rows. -/
theorem bias1_apply (n : Fin 100000) (f : Fin 64) : val_main_v45 (F := Ideal) x3 (ix2 n f) = x3 (ix1 f) := by
  rw [val_main_v45_apply, val_main_v44_apply]
  exact congrArg x3 (funext fun a => Fin.ext (by match a with | ⟨0, _⟩ => rfl))

/-- The hidden layer: the positive part of the first convolution. -/
theorem hidden_apply (n : Fin 100000) (f : Fin 64) :
    val_main_v47 (F := Ideal) x0 x1 x2 x3 (ix2 n f)
      = relu (conv hN (val_main_v21 (F := Ideal) x1) (val_main_v9 (F := Ideal) x1) (val_main_v28 (F := Ideal) x1)
          (val_main_v14 (F := Ideal) x1) (product x0 x2) x3) (ix2 n f) := by
  rw [val_main_v47_apply, Ideal.maximumf_def, val_main_call1_v0_apply, val_main_call1_cst_apply, Ideal.ofBits_def,
    Ideal.ofBits_zero_f32, val_main_v46_apply, Ideal.addf_def, aggregate1_apply, bias1_apply]
  refine congrArg (fun t => max ((0 + t) + x3 (ix1 f)) 0) (Finset.sum_congr rfl fun e _ => ?_)
  exact message1_apply x0 x1 x2 e f

/-- The hidden layer as a plain function of the arguments. -/
abbrev hidden : Mat 100000 64 :=
  relu (conv hN (val_main_v21 (F := Ideal) x1) (val_main_v9 (F := Ideal) x1) (val_main_v28 (F := Ideal) x1)
    (val_main_v14 (F := Ideal) x1) (product x0 x2) x3)

/-- The second convolution, of the hidden layer, as a plain function of the arguments. -/
abbrev logits : Mat 100000 16 :=
  conv hN (val_main_v21 (F := Ideal) x1) (val_main_v9 (F := Ideal) x1) (val_main_v28 (F := Ideal) x1)
    (val_main_v14 (F := Ideal) x1) (product (hidden x0 x1 x2 x3) x4) x5

/-! ## The second layer -/

/-- The second matrix product, of the hidden layer. -/
theorem project2_apply (n : Fin 100000) (f : Fin 16) :
    val_main_v48 (F := Ideal) x0 x1 x2 x3 x4 (ix2 n f) = product (hidden x0 x1 x2 x3) x4 (ix2 n f) := by
  rw [val_main_v48_apply]
  show _ = ∑ k : Fin 64, hidden x0 x1 x2 x3 (ix2 n k) * x4 (ix2 k f)
  refine Finset.sum_congr rfl fun k _ => ?_
  refine congrArg₂ (· * ·) ?_
    (congrArg x4 (funext fun a => Fin.ext (by match a with | ⟨0, _⟩ => rfl | ⟨1, _⟩ => rfl)))
  refine (congrArg (val_main_v47 (F := Ideal) x0 x1 x2 x3)
    (funext fun a => Fin.ext (by match a with | ⟨0, _⟩ => rfl | ⟨1, _⟩ => rfl) :
      lidx_main_v48 (ix2 n f) k = ix2 n k)).trans ?_
  exact hidden_apply x0 x1 x2 x3 n k

/-- An edge's message of the second layer: the source row of the product times the edge coefficient. -/
theorem message2_apply (e : Fin 3300000) (f : Fin 16) :
    val_main_v73 (F := Ideal) x0 x1 x2 x3 x4 (ix2 e f)
      = product (hidden x0 x1 x2 x3) x4 (ix2 (rowOf hN (val_main_v21 (F := Ideal) x1) e) f)
        * (val_main_v14 (F := Ideal) x1 (ix1 (rowOf hN (val_main_v21 (F := Ideal) x1) e))
          * val_main_v14 (F := Ideal) x1 (ix1 (rowOf hN (val_main_v28 (F := Ideal) x1) e))) := by
  rw [val_main_v73_apply, Ideal.mulf_def, val_main_v72_apply, val_main_v64_apply]
  have hi : idx_main_v64 (idx_main_v72 (ix2 e f)) = ix1 e :=
    funext fun a => Fin.ext (by match a with | ⟨0, _⟩ => rfl)
  rw [hi, coeff2_apply]
  unfold val_main_v71
  rw [gatherRows16_apply, words_v70, project2_apply]

/-- The second layer's sum of the messages into their destination rows, from zero. -/
theorem aggregate2_apply (n : Fin 100000) (f : Fin 16) :
    val_main_v76 (F := Ideal) x0 x1 x2 x3 x4 (ix2 n f)
      = 0 + ∑ e ∈ lands (val_main_v9 (F := Ideal) x1) n, val_main_v73 (F := Ideal) x0 x1 x2 x3 x4 (ix2 e f) := by
  unfold val_main_v76
  rw [scatter16_apply, words_v75, val_main_v74_apply, val_main_cst_15_apply, Ideal.ofBits_def, Ideal.ofBits_zero_f32]

/-- The second layer's bias, broadcast over the rows. -/
theorem bias2_apply (n : Fin 100000) (f : Fin 16) : val_main_v78 (F := Ideal) x5 (ix2 n f) = x5 (ix1 f) := by
  rw [val_main_v78_apply, val_main_v77_apply]
  exact congrArg x5 (funext fun a => Fin.ext (by match a with | ⟨0, _⟩ => rfl))

/-- The second convolution. -/
theorem logits_apply (n : Fin 100000) (f : Fin 16) :
    val_main_v79 (F := Ideal) x0 x1 x2 x3 x4 x5 (ix2 n f) = logits x0 x1 x2 x3 x4 x5 (ix2 n f) := by
  rw [val_main_v79_apply, Ideal.addf_def, aggregate2_apply, bias2_apply]
  refine congrArg (fun t => (0 + t) + x5 (ix1 f)) (Finset.sum_congr rfl fun e _ => ?_)
  exact message2_apply x0 x1 x2 x3 x4 e f

/-! ## The logarithm of the softmax along each row -/

/-- The row maximum: the fold from minus infinity, compared once more with minus infinity. -/
theorem rowMax_apply (n : Fin 100000) :
    val_main_call2_v2 (F := Ideal) x0 x1 x2 x3 x4 x5 (ix1 n) = rowMax (logits x0 x1 x2 x3 x4 x5) n := by
  rw [val_main_call2_v2_apply, Ideal.maximumf_def, val_main_call2_v1_apply, val_main_call2_cst_0_apply, Ideal.ofBits_def]
  unfold val_main_call2_v0
  rw [hostReduceMax2_last _ _ Cert.ReferenceIdeal.Gen.reducesTo_S100000x16_S100000_d1 (by decide) _ n,
    val_main_call2_cst_apply, Ideal.ofBits_def]
  exact congrArg (fun g : Fin 16 → EReal => max negInf ((Finset.univ : Finset (Fin 16)).fold max negInf g))
    (funext fun k => logits_apply x0 x1 x2 x3 x4 x5 n k)

/-- An entry minus its row's maximum. -/
theorem shifted_apply (n : Fin 100000) (f : Fin 16) :
    val_main_call2_v5 (F := Ideal) x0 x1 x2 x3 x4 x5 (ix2 n f)
      = logits x0 x1 x2 x3 x4 x5 (ix2 n f) - rowMax (logits x0 x1 x2 x3 x4 x5) n := by
  rw [val_main_call2_v5_apply, Ideal.subf_def, val_main_call2_v4_apply, val_main_call2_v3_apply]
  have hi : idx_main_call2_v3 (idx_main_call2_v4 (ix2 n f)) = ix1 n :=
    funext fun a => Fin.ext (by match a with | ⟨0, _⟩ => rfl)
  rw [hi, rowMax_apply, logits_apply]

/-- The sum, from zero, of the exponentials of a row's shifted entries. -/
theorem sumExp_apply (n : Fin 100000) :
    val_main_call2_v7 (F := Ideal) x0 x1 x2 x3 x4 x5 (ix1 n)
      = 0 + ∑ k : Fin 16, Ideal.exp (logits x0 x1 x2 x3 x4 x5 (ix2 n k) - rowMax (logits x0 x1 x2 x3 x4 x5) n) := by
  rw [val_main_call2_v7_apply, val_main_call2_cst_1_apply, Ideal.ofBits_def, Ideal.ofBits_zero_f32]
  refine congrArg (0 + ·) (Finset.sum_congr rfl fun k _ => ?_)
  have hk : idx_main_call2_v7 (ix1 n) k = ix2 n k :=
    funext fun a => Fin.ext (by match a with | ⟨0, _⟩ => rfl | ⟨1, _⟩ => rfl)
  rw [hk, val_main_call2_v6_apply, Ideal.hostUnary_exp_def, shifted_apply]

/-- The result at (n, f). -/
theorem result_apply (n : Fin 100000) (f : Fin 16) :
    val_main_v80 (F := Ideal) x0 x1 x2 x3 x4 x5 (ix2 n f) = logSoftmaxRows (logits x0 x1 x2 x3 x4 x5) (ix2 n f) := by
  rw [val_main_v80_apply, Ideal.subf_def, shifted_apply, val_main_call2_v10_apply, val_main_call2_v9_apply,
    Ideal.hostUnary_log_def, val_main_call2_v8_apply]
  have hi : idx_main_call2_v8 (idx_main_call2_v10 (ix2 n f)) = ix1 n :=
    funext fun a => Fin.ext (by match a with | ⟨0, _⟩ => rfl)
  rw [hi, sumExp_apply]
  rfl

/-- The reference's result is the logarithm of the softmax of the second convolution of the positive part of the
    first convolution. -/
theorem result :
    val_main_v80 (F := Ideal) x0 x1 x2 x3 x4 x5
      = Cert.Gcn.logSoftmaxRows (Cert.Gcn.conv hN (val_main_v21 (F := Ideal) x1) (val_main_v9 (F := Ideal) x1) (val_main_v28 (F := Ideal) x1) (val_main_v14 (F := Ideal) x1)
          (Cert.Gcn.product (Cert.Gcn.relu (Cert.Gcn.conv hN (val_main_v21 (F := Ideal) x1) (val_main_v9 (F := Ideal) x1) (val_main_v28 (F := Ideal) x1) (val_main_v14 (F := Ideal) x1) (Cert.Gcn.product x0 x2) x3)) x4) x5) := by
  funext i
  obtain ⟨n, f, rfl⟩ : ∃ (n : Fin 100000) (f : Fin 16), i = ix2 n f := ⟨i 0, i 1, eq_ix2 i⟩
  exact result_apply x0 x1 x2 x3 x4 x5 n f

end Cert.Gcn.RefValue

end
-- ==== Proof.Coeff.lean ====
/-
  Two facts about the reference's edge data that the aggregation law needs.

  The node coefficient is `1 / sqrt deg` where the degree is positive and zero elsewhere: whatever the degree is as
  an extended real, that guarded value is nonnegative and is not plus infinity (the inverse square root is plus
  infinity only at zero, which the guard excludes, and it is zero at plus infinity).

  The destination words are used raw when a message is added into its row, and wrapped (a negative word gets the
  number of rows added) and clamped when the destination's coefficient is read.  A word that reads, signed, as a row
  number `n` is not negative, so wrapping leaves it alone and clamping returns `n`.
-/
import proofs.«134963_j35364760715853_2_alg».proof.Proof.RefReadPatched
import proofs.«134963_j35364760715853_2_alg».proof.Proof.Spec
import Idealize.ShloMosaic.PureOps.Ideal.Laws

noncomputable section

namespace Cert.Gcn.Coeff

open Cert.ReferenceIdeal Cert.ReferenceIdeal.ReadP Idealize.ShloMosaic Idealize.ShloMosaic.ValueIdx

theorem hN : 0 < 100000 := by decide

/-- The inverse square root guarded by "the argument is positive", zero otherwise, is nonnegative and not `⊤`. -/
theorem guarded_rsqrt (g : EReal) :
    0 ≤ Scalar.select (Ideal.cmp .ogt g 0) (Ideal.rsqrt g) (0 : EReal)
      ∧ Scalar.select (Ideal.cmp .ogt g 0) (Ideal.rsqrt g) (0 : EReal) ≠ ⊤ := by
  unfold Scalar.select Ideal.cmp
  by_cases h : (0 : EReal) < g
  · have hc : (BitVec.ofBool (decide ((0 : EReal) < g)) = 1) := by simp [h]
    rw [if_pos hc]
    induction g using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hc : ¬ (BitVec.ofBool (decide ((0 : EReal) < g)) = 1) := by simp [h]
    rw [if_neg hc]
    exact ⟨le_refl _, EReal.zero_ne_top⟩

/-- Every node coefficient of the reference is nonnegative. -/
theorem coefficient_nonneg (x1 : (⟨S2x3200000, .i32⟩ : BufTy).Contents (Elt Ideal)) (n : Fin 100000) :
    0 ≤ val_main_v14 (F := Ideal) x1 (ix1 n) := by
  rw [val_main_v14_apply, val_main_v12_apply, val_main_v13_apply, val_main_call0_v1_apply, val_main_call0_v0_apply,
    val_main_cst_2_apply, val_main_v11_apply, val_main_cst_1_apply, Ideal.ofBits_def, Ideal.ofBits_zero_f32,
    Ideal.hostUnary_rsqrt_def]
  generalize val_main_v10 (F := Ideal) x1 (ix1 n) = g
  exact (guarded_rsqrt g).1

/-- No node coefficient of the reference is plus infinity. -/
theorem coefficient_ne_top (x1 : (⟨S2x3200000, .i32⟩ : BufTy).Contents (Elt Ideal)) (n : Fin 100000) :
    val_main_v14 (F := Ideal) x1 (ix1 n) ≠ ⊤ := by
  rw [val_main_v14_apply, val_main_v12_apply, val_main_v13_apply, val_main_call0_v1_apply, val_main_call0_v0_apply,
    val_main_cst_2_apply, val_main_v11_apply, val_main_cst_1_apply, Ideal.ofBits_def, Ideal.ofBits_zero_f32,
    Ideal.hostUnary_rsqrt_def]
  generalize val_main_v10 (F := Ideal) x1 (ix1 n) = g
  exact (guarded_rsqrt g).2

/-- A word that reads as a row number is left alone by the wrap of negative words. -/
theorem wrap_of_row (w : BitVec 32) (n : Fin 100000) (h : w.toInt = (n.val : ℤ)) :
    Scalar.select (IntOp.cmpi .slt w 0#32) (IntOp.addi w 100000#32) w = w := by
  unfold Scalar.select IntOp.cmpi
  have hs : w.slt 0#32 = false := by
    rw [BitVec.slt]
    simp only [BitVec.toInt_zero, decide_eq_false_iff_not, not_lt]
    omega
  simp [hs]

/-- An edge that lands on row `n` reads the coefficient of row `n`: its wrapped destination word, clamped, is `n`. -/
theorem destination_read (x1 : (⟨S2x3200000, .i32⟩ : BufTy).Contents (Elt Ideal)) (e : Fin 3300000) (n : Fin 100000)
    (h : (val_main_v9 (F := Ideal) x1 (ix2 e 0)).toInt = (n.val : ℤ)) :
    rowOf hN (val_main_v28 (F := Ideal) x1) e = n := by
  unfold rowOf
  rw [val_main_v9_apply] at h
  rw [val_main_v28_apply, val_main_v27_apply, val_main_v24_apply, val_main_v26_apply, val_main_v23_apply,
    val_main_c_4_apply, val_main_v25_apply, val_main_c_5_apply]
  have hi : idx_main_v28 (ix2 e 0) = idx_main_v9 (ix2 e 0) := rfl
  rw [hi]
  generalize val_main_v6 (F := Ideal) x1 (idx_main_v9 (ix2 e 0)) = w at h ⊢
  rw [wrap_of_row w n h]
  unfold clampRow
  apply Fin.ext
  show min w.toInt.toNat (100000 - 1) = n.val
  have := n.isLt
  omega

end Cert.Gcn.Coeff

end
-- ==== Proof.Aggregate.lean ====
/-
  The law that joins the two arrangements of a normalised graph convolution.

  One arrangement multiplies every edge's message by the product of its two endpoint coefficients and then sums the
  messages into their destination rows.  The other scales the rows by their coefficient before the messages are read,
  sums the messages, and scales each destination row by its coefficient after the sum.  They agree because
  multiplication of extended reals is associative and because a factor that is nonnegative and not plus infinity
  distributes over a sum of extended reals (a negative or infinite factor need not) — and because an edge that lands
  on row `n` reads the coefficient of row `n`.
-/
import proofs.«134963_j35364760715853_2_alg».proof.Proof.Spec

noncomputable section

namespace Cert.Gcn

open Idealize.ShloMosaic Idealize.ShloMosaic.ValueIdx

variable {N E K C : ℕ}

/-- A nonnegative factor other than plus infinity goes inside a finite sum of extended reals. -/
theorem sum_mul_of_nonneg_of_ne_top {ι : Type*} (s : Finset ι) (f : ι → EReal) {d : EReal} (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The convolution with the destination's coefficient taken out of the sum: scale the rows, sum the messages, scale
    the destination row, add the bias.  `Dc` is the coefficients as a column, `bc` the bias as a row. -/
theorem conv_eq (hN : 0 < N) (src dst dstRead : Words E) (D : Vect N) (Dc : Mat N 1) (h : Mat N C) (b : Vect C)
    (bc : Mat 1 C) (hDc : ∀ n : Fin N, Dc (ix2 n 0) = D (ix1 n)) (hbc : ∀ k : Fin C, bc (ix2 0 k) = b (ix1 k))
    (hD0 : ∀ n : Fin N, 0 ≤ D (ix1 n)) (hDt : ∀ n : Fin N, D (ix1 n) ≠ ⊤)
    (hread : ∀ (e : Fin E) (n : Fin N), (dst (ix2 e 0)).toInt = (n.val : ℤ) → rowOf hN dstRead e = n) :
    conv hN src dst dstRead D h b = affineRows (gatherSum hN src dst (scaleRows h Dc)) Dc bc := by
  funext i
  obtain ⟨n, k, rfl⟩ : ∃ (n : Fin N) (k : Fin C), i = ix2 n k := ⟨i 0, i 1, eq_ix2 i⟩
  show (0 + ∑ e ∈ lands dst n,
        h (ix2 (rowOf hN src e) k) * (D (ix1 (rowOf hN src e)) * D (ix1 (rowOf hN dstRead e)))) + b (ix1 k)
      = (0 + ∑ e ∈ lands dst n, h (ix2 (rowOf hN src e) k) * Dc (ix2 (rowOf hN src e) 0)) * Dc (ix2 n 0) + bc (ix2 0 k)
  rw [hbc, hDc n, zero_add, zero_add, sum_mul_of_nonneg_of_ne_top _ _ (hD0 n) (hDt n)]
  refine congrArg (· + b (ix1 k)) (Finset.sum_congr rfl fun e he => ?_)
  have hl : (dst (ix2 e 0)).toInt = (n.val : ℤ) := (Finset.mem_filter.mp he).2
  rw [hread e n hl, hDc, mul_assoc]

/-- Two layers and the row-wise logarithm of the softmax: the arrangement with pre- and post-scaled rows is the
    arrangement with per-edge coefficients. -/
theorem two_layers_eq (hN : 0 < N) (src dst dstRead : Words E) (D : Vect N) (Dc : Mat N 1)
    {K H C : ℕ} (x : Mat N K) (w1 : Mat K H) (b1 : Vect H) (b1c : Mat 1 H) (w2 : Mat H C) (b2 : Vect C) (b2c : Mat 1 C)
    (hDc : ∀ n : Fin N, Dc (ix2 n 0) = D (ix1 n))
    (hb1 : ∀ k : Fin H, b1c (ix2 0 k) = b1 (ix1 k)) (hb2 : ∀ k : Fin C, b2c (ix2 0 k) = b2 (ix1 k))
    (hD0 : ∀ n : Fin N, 0 ≤ D (ix1 n)) (hDt : ∀ n : Fin N, D (ix1 n) ≠ ⊤)
    (hread : ∀ (e : Fin E) (n : Fin N), (dst (ix2 e 0)).toInt = (n.val : ℤ) → rowOf hN dstRead e = n) :
    logSoftmaxRows (affineRows (gatherSum hN src dst (scaleRows (product (relu (affineRows (gatherSum hN src dst
        (scaleRows (product x w1) Dc)) Dc b1c)) w2) Dc)) Dc b2c)
      = logSoftmaxRows (conv hN src dst dstRead D (product (relu (conv hN src dst dstRead D (product x w1) b1)) w2) b2) := by
  rw [conv_eq hN src dst dstRead D Dc (product x w1) b1 b1c hDc hb1 hD0 hDt hread,
    conv_eq hN src dst dstRead D Dc _ b2 b2c hDc hb2 hD0 hDt hread]

end Cert.Gcn

end
-- ==== Proof.lean ====
/-
  The certificate of a two-layer graph convolution network with a row-wise logarithm of the softmax.

  The kernel program tiles three dense stages over the nodes (project the features and scale every row by its node
  coefficient; scale, add the bias, take the positive part, project and scale again; scale, add the bias and take the
  logarithm of the softmax along each row) and leaves the two sparse stages — gather the rows the edges' source words
  name and sum them into the rows their destination words name — to host operations between them.  The reference
  multiplies every edge's message by the product of the two endpoint coefficients before it sums.  On extended reals
  the two agree: a format change is the identity, the contraction into a zero accumulator is the reference's
  contraction, and a node coefficient is `1 / sqrt deg` guarded by `deg > 0`, hence nonnegative and never plus
  infinity, so it may be taken out of the sum over the edges that land on its node — and an edge lands on node `n`
  exactly when its destination word reads as `n`, in which case the coefficient the reference reads for it is node
  `n`'s.  No finiteness of the inputs is used.

  The frames of the two kernel programs are the generated ones; the reference's frame is its run with the result
  dropped; the idealization rewrote nothing, so there is nothing to preserve.
-/
import proofs.«134963_j35364760715853_2_alg».proof.Defs
import proofs.«134963_j35364760715853_2_alg».proof.Proof.Gen.Kernel
import proofs.«134963_j35364760715853_2_alg».proof.Proof.Gen.Kernel.Skeleton
import proofs.«134963_j35364760715853_2_alg».proof.Proof.Gen.Kernel.Launch
import proofs.«134963_j35364760715853_2_alg».proof.Proof.Gen.Kernel.Points
import proofs.«134963_j35364760715853_2_alg».proof.Proof.Gen.Kernel.Frame
import proofs.«134963_j35364760715853_2_alg».proof.Proof.Gen.KernelIdeal
import proofs.«134963_j35364760715853_2_alg».proof.Proof.Gen.KernelIdeal.Skeleton
import proofs.«134963_j35364760715853_2_alg».proof.Proof.Gen.KernelIdeal.Launch
import proofs.«134963_j35364760715853_2_alg».proof.Proof.Gen.KernelIdeal.Points
import proofs.«134963_j35364760715853_2_alg».proof.Proof.Gen.KernelIdeal.Frame
import proofs.«134963_j35364760715853_2_alg».proof.Proof.Gen.ReferenceIdeal
import proofs.«134963_j35364760715853_2_alg».proof.Proof.Gen.Pre_finite_inputs
import proofs.«134963_j35364760715853_2_alg».proof.Proof.KernelRun
import proofs.«134963_j35364760715853_2_alg».proof.Proof.KernelValue
import proofs.«134963_j35364760715853_2_alg».proof.Proof.KernelWords
import proofs.«134963_j35364760715853_2_alg».proof.Proof.RegionProject
import proofs.«134963_j35364760715853_2_alg».proof.Proof.RegionHidden
import proofs.«134963_j35364760715853_2_alg».proof.Proof.RegionLogSoftmax
import proofs.«134963_j35364760715853_2_alg».proof.Proof.RefRun
import proofs.«134963_j35364760715853_2_alg».proof.Proof.RefValue
import proofs.«134963_j35364760715853_2_alg».proof.Proof.Coeff
import proofs.«134963_j35364760715853_2_alg».proof.Proof.Aggregate
import Idealize.ShloMosaic.Lib.ValueLayout
import Idealize.ShloMosaic.Adequacy
import Idealize.ShloMosaic.Init

set_option maxRecDepth 16384

noncomputable section

namespace Cert.Proof

open Idealize.ShloMosaic Idealize.SL.Sem Idealize.ShloMosaic.ValueIdx

/-- The network as the reference computes it, of the six arguments. -/
def network (x0 : (⟨Cert.ReferenceIdeal.S100000x512, .f32⟩ : BufTy).Contents (Elt Ideal))
    (x1 : (⟨Cert.ReferenceIdeal.S2x3200000, .i32⟩ : BufTy).Contents (Elt Ideal))
    (x2 : (⟨Cert.ReferenceIdeal.S512x64, .f32⟩ : BufTy).Contents (Elt Ideal))
    (x3 : (⟨Cert.ReferenceIdeal.S64, .f32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal)) :
    (⟨Cert.ReferenceIdeal.S100000x16, .f32⟩ : BufTy).Contents (Elt Ideal) :=
  Cert.ReferenceIdeal.ReadP.val_main_v80 (F := Ideal) x0 x1 x2 x3 x4 x5

open Cert.KernelIdeal in
/-- The kernel program's result array is the network of its launched arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc main_v42)
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold network
  rw [Cert.Gcn.RefValue.result,
    Cert.Gcn.KernelValue.value m ρ c Cert.Gcn.RegionProject.final Cert.Gcn.RegionHidden.final Cert.Gcn.RegionLogSoftmax.final,
    Cert.Gcn.KernelWords.source_column, Cert.Gcn.KernelWords.destination_column]
  exact Cert.Gcn.two_layers_eq Cert.Gcn.KernelValue.hN _ _ _ _ _ _ _ _ _ _ _ _
    (Cert.Gcn.KernelWords.coefficient_column m ρ c)
    (fun k => ValueIdx.shapeCast_a_1a_apply _ _ 0 k)
    (fun k => ValueIdx.shapeCast_a_1a_apply _ _ 0 k)
    (Cert.Gcn.Coeff.coefficient_nonneg _) (Cert.Gcn.Coeff.coefficient_ne_top _)
    (Cert.Gcn.Coeff.destination_read _)

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Gcn.RefRun.run m ρ)

/-- Both idealized programs end with the network of the arguments in their result arrays. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_result m ρ c), (h c).2⟩)
      (Cert.Gcn.KernelRun.run (F := Ideal) m ρ)
  · refine (θ_run Cert.ReferenceIdeal.defs _ _).mono (fun _ h c => ⟨(h c).1.trans ?_, (h c).2⟩)
      (Cert.Gcn.RefRun.run m' ρ')
    unfold network
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
